-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S4x64x64 : Shape := ⟨3, ![4, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel

variable [Facts]

def fn {F : FTy → Type} [FloatOps F] (main_arg0 : FVec F S4x64x64x64 .f32) (main_arg1 : IVec S4x64x64 32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  main_v3
-- ==== Kernel.lean ====
abbrev S4x64x64x64 : Shape := ⟨4, ![4, 64, 64, 64]⟩
abbrev S4x64x64 : Shape := ⟨3, ![4, 64, 64]⟩
abbrev S4x4096x64 : Shape := ⟨3, ![4, 4096, 64]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S_ : Shape := ⟨0, ![]⟩
abbrev S4x1x1 : Shape := ⟨3, ![4, 1, 1]⟩
abbrev S1x2048x64 : Shape := ⟨3, ![1, 2048, 64]⟩
abbrev S1x1024x64 : Shape := ⟨3, ![1, 1024, 64]⟩
abbrev S1x1x2048 : Shape := ⟨3, ![1, 1, 2048]⟩
abbrev S1x1x1024 : Shape := ⟨3, ![1, 1, 1024]⟩
abbrev S1x1x1 : Shape := ⟨3, ![1, 1, 1]⟩
abbrev S2048x64 : Shape := ⟨2, ![2048, 64]⟩
abbrev S1024x64 : Shape := ⟨2, ![1024, 64]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4 : Shape := ⟨1, ![4]⟩

abbrev nBuf : Space → Nat
  | .hbm => 25
  | .vmem => 15
  | .smem => 0
  | _ => 0

abbrev bufTy : (tb : Table) → Fin (tcTables nBuf tb) → BufTy
  | .hbm, ⟨0, _⟩ => ⟨S4x64x64x64, .f32⟩
  | .hbm, ⟨1, _⟩ => ⟨S4x64x64, .i32⟩
  | .hbm, ⟨2, _⟩ => ⟨S4x4096x64, .f32⟩
  | .hbm, ⟨3, _⟩ => ⟨S4x4096x64, .bf16⟩
  | .hbm, ⟨4, _⟩ => ⟨S4x4096, .i32⟩
  | .hbm, ⟨5, _⟩ => ⟨S4x4096x1, .i32⟩
  | .hbm, ⟨6, _⟩ => ⟨S4x1x4096, .i32⟩
  | .hbm, ⟨7, _⟩ => ⟨S4x4096x4096, .i32⟩
  | .hbm, ⟨8, _⟩ => ⟨S4x4096x4096, .i32⟩
  | .hbm, ⟨9, _⟩ => ⟨S4x4096x4096, .i1⟩
  | .hbm, ⟨10, _⟩ => ⟨S4x4096x4096, .i32⟩
  | .hbm, ⟨11, _⟩ => ⟨S_, .i32⟩
  | .hbm, ⟨12, _⟩ => ⟨S4x4096, .i32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x1x4096, .i32⟩
  | .hbm, ⟨18, _⟩ => ⟨S4x1x4096, .f32⟩
  | .hbm, ⟨19, _⟩ => ⟨S4x1x1, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x2048x64, .bf16⟩
  | .local _ .vmem, ⟨1, _⟩ => ⟨S1x2048x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1x2048, .i32⟩
  | .local _ .vmem, ⟨5, _⟩ => ⟨S1x1x2048, .i32⟩
  | .local _ .vmem, ⟨6, _⟩ => ⟨S1x1x1024, .i32⟩
  | .local _ .vmem, ⟨7, _⟩ => ⟨S1x1x1024, .i32⟩
  | .local _ .vmem, ⟨8, _⟩ => ⟨S1x1x2048, .f32⟩
  | .local _ .vmem, ⟨9, _⟩ => ⟨S1x1x2048, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg1 : BitVec 32 := BitVec.ofNat 32 (i 1).val
  let c1_i32 : BitVec 32 := 1#32
  let v46 : BitVec 1 := Scalar.cmpi .eq arg1 c1_i32
  let arg2 : BitVec 32 := BitVec.ofNat 32 (i 2).val
  let c3_i32 : BitVec 32 := 3#32
  let v47 : BitVec 1 := Scalar.cmpi .eq arg2 c3_i32
  let v48 : BitVec 1 := Scalar.andi v46 v47
  let v49 : BitVec 32 := Scalar.extui v48
  let c0_i32_30 : BitVec 32 := 0#32
  let v50 : BitVec 1 := Scalar.cmpi .ne v49 c0_i32_30
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  shapeCasts_S4x64x64x64_S4x4096x64 : S4x64x64x64.ShapeCasts S4x4096x64
  bitsLt_bf16_f32 : FTy.bits .bf16 < FTy.bits .f32
  shapeCasts_S4x64x64_S4x4096 : S4x64x64.ShapeCasts S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  natLt_1_32 : 1 < 32
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  shapeCasts_S4x4096_S4x1x4096 : S4x4096.ShapeCasts S4x1x4096
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S2048x1 : S2048.ShapeCasts S2048x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  reduces_S2048x1_S1 : S2048x1.Reduces [0] S1
  shapeCasts_S1_S1x1 : S1.ShapeCasts S1x1
  shapeCasts_S1x1_S1x1x1 : S1x1.ShapeCasts S1x1x1
  shapeCasts_S4x1x1_S4 : S4x1x1.ShapeCasts S4
  reducesTo_S4_S_d0 : S4.ReducesTo [0] S_
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S4x4096x64.size a
  hwx0_0 : ∀ i : grid0.Coords, EltTy.bits .bf16 = 32 ∨ (Rect.block (s := S4x4096x64) S1x2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .bf16 = 32 ∨ (Rect.block (s := S4x4096x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x4096.size a
  hwx0_2 : ∀ i : grid0.Coords, EltTy.bits .i32 = 32 ∨ (Rect.block (s := S4x1x4096) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .i32 = 32 ∨ (Rect.block (s := S4x1x4096) S1x1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x4096.size a
  hwx0_4 : ∀ i : grid0.Coords, EltTy.bits .f32 = 32 ∨ (Rect.block (s := S4x1x4096) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S4x1x4096.size a
  hwx0_5 : ∀ i : grid0.Coords, EltTy.bits .f32 = 32 ∨ (Rect.block (s := S4x1x4096) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S4x1x1.size a
  hwx0_6 : ∀ i : grid0.Coords, EltTy.bits .f32 = 32 ∨ (Rect.block (s := S4x1x1) S1x1x1.size (cc0_transform_6 i) (hinb0_6 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v1) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x64x64x64 : Shape := ⟨4, ![4, 64, 64, 64]⟩
abbrev S4x64x64 : Shape := ⟨3, ![4, 64, 64]⟩
abbrev S4x4096x64 : Shape := ⟨3, ![4, 4096, 64]⟩
abbrev S4x4096x4096 : Shape := ⟨3, ![4, 4096, 4096]⟩
abbrev S4x4096 : Shape := ⟨2, ![4, 4096]⟩
abbrev S4x4096x1 : Shape := ⟨3, ![4, 4096, 1]⟩
abbrev S4x1x4096 : Shape := ⟨3, ![4, 1, 4096]⟩
abbrev S_ : Shape := ⟨0, ![]⟩
abbrev S4 : Shape := ⟨1, ![4]⟩

abbrev nBuf : Space → Nat
  | .hbm => 39
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x64x64, .i32⟩
  | .hbm, ⟨2, _⟩ => ⟨S4x4096x64, .f32⟩
  | .hbm, ⟨3, _⟩ => ⟨S4x4096x4096, .f32⟩
  | .hbm, ⟨4, _⟩ => ⟨S4x4096, .i32⟩
  | .hbm, ⟨5, _⟩ => ⟨S4x4096x1, .i32⟩
  | .hbm, ⟨6, _⟩ => ⟨S4x1x4096, .i32⟩
  | .hbm, ⟨7, _⟩ => ⟨S4x4096x4096, .i32⟩
  | .hbm, ⟨8, _⟩ => ⟨S4x4096x4096, .i32⟩
  | .hbm, ⟨9, _⟩ => ⟨S4x4096x4096, .i1⟩
  | .hbm, ⟨10, _⟩ => ⟨S4x4096x4096, .i32⟩
  | .hbm, ⟨11, _⟩ => ⟨S_, .i32⟩
  | .hbm, ⟨12, _⟩ => ⟨S4x4096, .i32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S4x64x64x64_S4x4096x64 : S4x64x64x64.ShapeCasts S4x4096x64
  shapeCasts_S4x64x64_S4x4096 : S4x64x64.ShapeCasts S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  natLt_1_32 : 1 < 32
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S_S4x4096x4096 : S_.BroadcastsInDim S4x4096x4096 (![] : Fin 0 → Fin S4x4096x4096.rank)
  reducesTo_S4x4096x4096_S4_d1_2 : S4x4096x4096.ReducesTo [1, 2] S4
  reducesTo_S4_S_d0 : S4.ReducesTo [0] S_
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.KwConds.lean ====
/-
  The grid of the kernel has 32 points, point `t` being batch `t / 8`, row block `t / 4 % 2`, column block `t % 4`.
  The body's two conditionals depend on the point only: the accumulator is reset at the first point of a batch
  (`t % 8 = 0`) and copied to the output block at the last (`t % 8 = 7`). Both are decided over the grid here, with
  the schedule facts that follow from them: the output block is written back exactly where it is stored.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import Idealize.ShloMosaic.Lib.Pipeline.FrameBody
import Idealize.ShloMosaic.Lib.Pipeline.Regions
import Idealize.ShloMosaic.Lib.Tactic
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset: row block and column block both zero. -/
abbrev condReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem condReset_iff : ∀ t : Fin cfg0.N, condReset (grid0.coords t) ↔ t.val % 8 = 0 :=
  (by decide +kernel : ∀ t : Fin grid0.N, condReset (grid0.coords t) ↔ t.val % 8 = 0)

/-- The accumulator is copied out: the last row block and the last column block. -/
abbrev condFlush (i : grid0.Coords) : Prop := k0_cond2 i = 1#1
theorem condFlush_iff : ∀ t : Fin cfg0.N, condFlush (grid0.coords t) ↔ t.val % 8 = 7 :=
  (by decide +kernel : ∀ t : Fin grid0.N, condFlush (grid0.coords t) ↔ t.val % 8 = 7)

/-- The input windows are never idle. -/
theorem live_in : ∀ (w : Fin 7), w.val < 6 → ∀ t : Fin cfg0.N, cfg0.idle w (grid0.coords t) = false := by decide +kernel
/-- Away from a batch's last point the output window is idle and is not written back. -/
theorem idle_out : ∀ t : Fin cfg0.N, ¬condFlush (grid0.coords t) → cfg0.idle 6 (grid0.coords t) = true := by decide +kernel
theorem noFlush_out : ∀ t : Fin cfg0.N, ¬condFlush (grid0.coords t) → (cfg0.win 6).flush t = false := by decide +kernel
/-- At a batch's last point it is live. -/
theorem live_out : ∀ t : Fin cfg0.N, condFlush (grid0.coords t) → cfg0.idle 6 (grid0.coords t) = false := by decide +kernel

/-- The windows' current staging memrefs at a point, as the pipeline passes them, and the scratch. -/
abbrev ms0 (t : Fin cfg0.N) : Memref sig .tc .vmem S1x2048x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2048 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)
abbrev scM : Memref sig .tc .vmem S1x1x1 .f32 := Memref.whole cc0_scratch0
/-- The scratch and one staging buffer of the output window as views: contents are stated through them. -/
abbrev VS : View sig .tc .vmem S1x1x1 .f32 := scM.view
abbrev VO : View sig .tc .vmem S1x1x1 .f32 := (Memref.whole cc0_stg6_0 : Memref sig .tc .vmem S1x1x1 .f32).view

end Cert.Kernel.Fr

end
-- ==== Proof.KwRunA.lean ====
/-
  The kernel body run at the first point of a batch: the accumulator is reset to zero, the tile's sum is added
  to it, and nothing is copied to the output block, whose buffer is handed back as it was found.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwConds
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch accumulator (last store first) at a point where the
    accumulator is reset and not copied out, with the body's triple on whole memrefs: the six input buffers at
    their contents and the output buffer at its contents are handed back unchanged. -/
noncomputable def kernelRunA (c : Dev nD) (i : grid0.Coords) (arg3 : Memref sig .tc .vmem S1x2048x64 .bf16) (harg3 : arg3.IsWhole) (arg4 : Memref sig .tc .vmem S1x1024x64 .bf16) (harg4 : arg4.IsWhole) (arg5 : Memref sig .tc .vmem S1x1x2048 .i32) (harg5 : arg5.IsWhole) (arg6 : Memref sig .tc .vmem S1x1x1024 .i32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1x1x1 .f32) (harg9 : arg9.IsWhole) (arg10 : Memref sig .tc .vmem S1x1x1 .f32) (harg10 : arg10.IsWhole) (hc0 : condReset i) (hc1 : ¬condFlush i)
    (x0 : Vec F S1x2048x64 .bf16) (x1 : Vec F S1x1024x64 .bf16) (x2 : Vec F S1x1x2048 .i32) (x3 : Vec F S1x1x1024 .i32) (x4 : Vec F S1x1x2048 .f32) (x5 : Vec F S1x1x1024 .f32) :
    Σ' (L6 : List (View.Piece (Elt F) S1x1x1 .f32)), { LS : List (View.Piece (Elt F) S1x1x1 .f32) //
      ∀ (xi6 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc0__ebloss_kernel i arg3 harg3 arg4 harg4 arg5 harg5 arg6 harg6 arg7 harg7 arg8 harg8 arg9 harg9 arg10 harg10) K } := by
  refine ⟨[], ?_, fun xi6 E K => ?run⟩
  case run =>
    simp only [cc0__ebloss_kernel_eq_skeleton]; unfold cc0__ebloss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Fr

end
-- ==== Proof.KwRunB.lean ====
/-
  The kernel body run at a point that is neither the first nor the last of its batch: the tile's sum is added to
  the accumulator, which the point before left in the scratch; nothing is copied to the output block, whose buffer
  is handed back as it was found.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwConds
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the scratch accumulator at a point where it is neither reset nor copied
    out, the accumulator found at `xs`, with the body's triple on whole memrefs. -/
noncomputable def kernelRunB (c : Dev nD) (i : grid0.Coords) (arg3 : Memref sig .tc .vmem S1x2048x64 .bf16) (harg3 : arg3.IsWhole) (arg4 : Memref sig .tc .vmem S1x1024x64 .bf16) (harg4 : arg4.IsWhole) (arg5 : Memref sig .tc .vmem S1x1x2048 .i32) (harg5 : arg5.IsWhole) (arg6 : Memref sig .tc .vmem S1x1x1024 .i32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1x1x1 .f32) (harg9 : arg9.IsWhole) (arg10 : Memref sig .tc .vmem S1x1x1 .f32) (harg10 : arg10.IsWhole) (hc0 : ¬condReset i) (hc1 : ¬condFlush i)
    (x0 : Vec F S1x2048x64 .bf16) (x1 : Vec F S1x1024x64 .bf16) (x2 : Vec F S1x1x2048 .i32) (x3 : Vec F S1x1x1024 .i32) (x4 : Vec F S1x1x2048 .f32) (x5 : Vec F S1x1x1024 .f32) (xs : Vec F S1x1x1 .f32) :
    Σ' (L6 : List (View.Piece (Elt F) S1x1x1 .f32)), { LS : List (View.Piece (Elt F) S1x1x1 .f32) //
      ∀ (xi6 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc0__ebloss_kernel i arg3 harg3 arg4 harg4 arg5 harg5 arg6 harg6 arg7 harg7 arg8 harg8 arg9 harg9 arg10 harg10) K } := by
  refine ⟨[], ?_, fun xi6 E K => ?run⟩
  case run =>
    simp only [cc0__ebloss_kernel_eq_skeleton]; unfold cc0__ebloss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Fr

end
-- ==== Proof.KwRunC.lean ====
/-
  The kernel body run at the last point of a batch: the tile's sum is added to the accumulator the point before
  left in the scratch, and the accumulator is copied to the output block.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwConds
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer and in the scratch accumulator at a point where
    the accumulator is copied out and not reset, the accumulator found at `xs`, with the body's triple on whole
    memrefs. -/
noncomputable def kernelRunC (c : Dev nD) (i : grid0.Coords) (arg3 : Memref sig .tc .vmem S1x2048x64 .bf16) (harg3 : arg3.IsWhole) (arg4 : Memref sig .tc .vmem S1x1024x64 .bf16) (harg4 : arg4.IsWhole) (arg5 : Memref sig .tc .vmem S1x1x2048 .i32) (harg5 : arg5.IsWhole) (arg6 : Memref sig .tc .vmem S1x1x1024 .i32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1x1x1 .f32) (harg9 : arg9.IsWhole) (arg10 : Memref sig .tc .vmem S1x1x1 .f32) (harg10 : arg10.IsWhole) (hc0 : ¬condReset i) (hc1 : condFlush i)
    (x0 : Vec F S1x2048x64 .bf16) (x1 : Vec F S1x1024x64 .bf16) (x2 : Vec F S1x1x2048 .i32) (x3 : Vec F S1x1x1024 .i32) (x4 : Vec F S1x1x2048 .f32) (x5 : Vec F S1x1x1024 .f32) (xs : Vec F S1x1x1 .f32) :
    Σ' (L6 : List (View.Piece (Elt F) S1x1x1 .f32)), { LS : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc0__ebloss_kernel i arg3 harg3 arg4 harg4 arg5 harg5 arg6 harg6 arg7 harg7 arg8 harg8 arg9 harg9 arg10 harg10) K } := by
  refine ⟨?_, ?_, fun E K => ?run⟩
  case run =>
    simp only [cc0__ebloss_kernel_eq_skeleton]; unfold cc0__ebloss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.Kernel.Fr

end
-- ==== Proof.KwData.lean ====
/-
  The proof data of the kernel's pipeline.

  The region finds its arrays as the host lines before it leave them. The six input windows read three arrays, two
  windows each (a row block and a column block of the same array): every input buffer holds its array's block at
  every point, and each array is held by its two windows at the two halves of the full share. The scratch holds the
  running sum of the batch's tiles: after point `n` it is what the body's stores leave there, computed from the
  point's six blocks and, except at the first point of a batch, from what the point before left. The output block's
  buffer is stored only at the last point of a batch, where it receives the running sum.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwRunA
import proofs.«175888_j22187801051866_2_alg».proof.Proof.KwRunB
import proofs.«175888_j22187801051866_2_alg».proof.Proof.KwRunC
import Idealize.ShloMosaic.Lib.Ring
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers at launch, as a valuation, -/
abbrev V₀ (c : Dev nD) : Valuation τ sig (Elt F) := fun b => m (c, b)
/-- and when the region is entered: the host lines before it have run. -/
abbrev Vv (c : Dev nD) : Valuation τ sig (Elt F) := StableHlo.after hostOps0 (V₀ m c)
abbrev V (c : Dev nD) (b : Ref sig .tc) : Buf (Elt F) ((c : Thread nD τ).loc b) := Vv m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input's current buffer holds its block at every point, fetched there or not: where it is not fetched the
    block index has not moved. For any proof data whose array is the region's and whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the scratch and the output block hold after a point -/

/-- The class invariant: the scratch at anything, the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The scratch after a point where the accumulator is reset. -/
def soutA (c : Dev nD) (t : Fin cfg0.N) (hc0 : condReset (grid0.coords t)) (hc1 : ¬condFlush (grid0.coords t)) : Vec F S1x1x1 .f32 :=
  VS.read (Elt F) (VS.writes (Elt F) VS.junk (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.1)
theorem scoverA (c : Dev nD) (t : Fin cfg0.N) (hc0 : condReset (grid0.coords t)) (hc1 : ¬condFlush (grid0.coords t)) (y : S1x1x1.Idx) :
    ∃ pc ∈ (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.1, y ∈ pc.1.set :=
  View.cover_of_tiledL (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.1 S1x1x1.size (by sl_kernel_rfl) y

/-- The scratch after a point in the middle of a batch, found at `xs`. -/
def soutB (c : Dev nD) (t : Fin cfg0.N) (hc0 : ¬condReset (grid0.coords t)) (hc1 : ¬condFlush (grid0.coords t)) (xs : Vec F S1x1x1 .f32) : Vec F S1x1x1 .f32 :=
  VS.read (Elt F) (VS.writes (Elt F) VS.junk (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1)
theorem scoverB (c : Dev nD) (t : Fin cfg0.N) (hc0 : ¬condReset (grid0.coords t)) (hc1 : ¬condFlush (grid0.coords t)) (xs : Vec F S1x1x1 .f32) (y : S1x1x1.Idx) :
    ∃ pc ∈ (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1, y ∈ pc.1.set :=
  View.cover_of_tiledL (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1 S1x1x1.size (by sl_kernel_rfl) y

/-- The scratch and the output block's buffer after the last point of a batch, the scratch found at `xs`. -/
def soutC (c : Dev nD) (t : Fin cfg0.N) (hc0 : ¬condReset (grid0.coords t)) (hc1 : condFlush (grid0.coords t)) (xs : Vec F S1x1x1 .f32) : Vec F S1x1x1 .f32 :=
  VS.read (Elt F) (VS.writes (Elt F) VS.junk (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1)
theorem scoverC (c : Dev nD) (t : Fin cfg0.N) (hc0 : ¬condReset (grid0.coords t)) (hc1 : condFlush (grid0.coords t)) (xs : Vec F S1x1x1 .f32) (y : S1x1x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1, y ∈ pc.1.set :=
  View.cover_of_tiledL (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1 S1x1x1.size (by sl_kernel_rfl) y
def outC (c : Dev nD) (t : Fin cfg0.N) (hc0 : ¬condReset (grid0.coords t)) (hc1 : condFlush (grid0.coords t)) (xs : Vec F S1x1x1 .f32) : Vec F S1x1x1 .f32 :=
  VO.read (Elt F) (VO.writes (Elt F) VO.junk (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).1)
theorem coverC (c : Dev nD) (t : Fin cfg0.N) (hc0 : ¬condReset (grid0.coords t)) (hc1 : condFlush (grid0.coords t)) (xs : Vec F S1x1x1 .f32) (y : S1x1x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).1, y ∈ pc.1.set :=
  View.cover_of_tiledL (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).1 S1x1x1.size (by sl_kernel_rfl) y

theorem N32 : cfg0.N = 32 := N_0

/-- THE RUNNING SUM: what the scratch holds after the body at position `n`. -/
def accAt (c : Dev nD) : (n : ℕ) → n < cfg0.N → Vec F S1x1x1 .f32
  | 0, hn => soutA m c ⟨0, hn⟩ ((condReset_iff ⟨0, hn⟩).mpr (Nat.zero_mod _)) (fun h => by have h' := (condFlush_iff ⟨0, hn⟩).mp h; simp at h')
  | n + 1, hn =>
    if h0 : (n + 1) % 8 = 0 then
      soutA m c ⟨n + 1, hn⟩ ((condReset_iff ⟨n + 1, hn⟩).mpr h0) (fun h => by have h' := (condFlush_iff ⟨n + 1, hn⟩).mp h; dsimp only at h'; omega)
    else if h1 : (n + 1) % 8 = 7 then
      soutC m c ⟨n + 1, hn⟩ (fun h => h0 ((condReset_iff ⟨n + 1, hn⟩).mp h)) ((condFlush_iff ⟨n + 1, hn⟩).mpr h1) (accAt c n (Nat.lt_of_succ_lt hn))
    else
      soutB m c ⟨n + 1, hn⟩ (fun h => h0 ((condReset_iff ⟨n + 1, hn⟩).mp h)) (fun h => h1 ((condFlush_iff ⟨n + 1, hn⟩).mp h)) (accAt c n (Nat.lt_of_succ_lt hn))

theorem accAt_A (c : Dev nD) (t : Fin cfg0.N) (h0 : t.val % 8 = 0) (hc0 : condReset (grid0.coords t)) (hc1 : ¬condFlush (grid0.coords t)) :
    accAt m c t.val t.isLt = soutA m c t hc0 hc1 := by
  obtain ⟨n, hn⟩ := t
  cases n with
  | zero => rfl
  | succ n => exact (dif_pos h0).trans rfl

theorem accAt_B (c : Dev nD) (t : Fin cfg0.N) (h0 : ¬t.val % 8 = 0) (h1 : ¬t.val % 8 = 7) (hc0 : ¬condReset (grid0.coords t)) (hc1 : ¬condFlush (grid0.coords t)) :
    accAt m c t.val t.isLt = soutB m c t hc0 hc1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg0.N) (h0 : ¬t.val % 8 = 0) (h1 : t.val % 8 = 7) (hc0 : ¬condReset (grid0.coords t)) (hc1 : condFlush (grid0.coords t)) :
    accAt m c t.val t.isLt = soutC m c t hc0 hc1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block's buffer holds after point `t`: at the last point of a batch what the body stores there;
    elsewhere the buffer is idle and this value is not consulted. -/
def outAt (c : Dev nD) (t : Fin cfg0.N) : Vec F S1x1x1 .f32 :=
  if h1 : t.val % 8 = 7 then
    outC m c t (fun h => by have h' := (condReset_iff t).mp h; omega) ((condFlush_iff t).mpr h1) (accAt m c (t.val - 1) (Nat.lt_of_le_of_lt (Nat.sub_le _ _) t.isLt))
  else VO.read (Elt F) VO.junk

theorem outAt_C (c : Dev nD) (t : Fin cfg0.N) (h1 : t.val % 8 = 7) (hc0 : ¬condReset (grid0.coords t)) (hc1 : condFlush (grid0.coords t)) :
    outAt m c t = outC m c t hc0 hc1 (accAt m c (t.val - 1) (Nat.lt_of_le_of_lt (Nat.sub_le _ _) t.isLt)) := by
  unfold outAt; exact (dif_pos h1).trans rfl

/-- The region invariant before position `n`: before the first point the scratch holds anything; afterwards the
    running sum the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The proof data of the one pipeline on core `c`. The two windows on one array hold it at the two halves of the
    full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

end Cert.Kernel.Fr

end
-- ==== Proof.KwBody.lean ====
/-
  The body obligation of the kernel's pipeline: at every grid point the body, handed the invariant and the seven
  windows' buffers as the proof data says they are found, returns them as the proof data says they are left. The
  point's position in its batch (first, last, neither) says which of the body's three runs applies.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwData
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt N32
  by_cases h0 : t.val % 8 = 0
  · -- the first point of a batch
    have hc0 : condReset (grid0.coords t) := (condReset_iff t).mpr h0
    have hc1 : ¬condFlush (grid0.coords t) := fun h => by have h' := (condFlush_iff t).mp h; omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [show (dats m 0 c).leavesExact 5 t = owns (c : Thread nD τ) (ms5 t) fullShare ((dats m 0 c).after 5 t) from by
      unfold Dat.leavesExact; rw [live5 t], after5]
    rw [Dat.leavesExact_idle (dats m 0 c) 6 t (idle_out t hc1) (noFlush_out t hc1)]
    rw [accAt_A m c t h0 hc0 hc1]
    unfold soutA
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (scoverA m c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (scoverA m c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    have hc0 : ¬condReset (grid0.coords t) := fun h => h0 ((condReset_iff t).mp h)
    by_cases h1 : t.val % 8 = 7
    · -- the last point of a batch
      have hc1 : condFlush (grid0.coords t) := (condFlush_iff t).mpr h1
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live_out t hc1], after6]
      rw [accAt_C m c t h0 h1 hc0 hc1, outAt_C m c t h1 hc0 hc1]
      unfold soutC outC
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scoverC m c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC m c t hc0 hc1 _)
    · -- a point in the middle of a batch
      have hc1 : ¬condFlush (grid0.coords t) := fun h => h1 ((condFlush_iff t).mp h)
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle_out t hc1) (noFlush_out t hc1)]
      rw [accAt_B m c t h0 h1 hc0 hc1]
      unfold soutB
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (scoverB m c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the running sum's value is forgotten. -/
theorem hout (c : Dev nD) : (dats m 0 c).Φ (Fin.last cfg0.N) ⊢ Pipeline.ΦA spec0 c := by
  have ht : (Fin.last cfg0.N).val ≠ 0 := by rw [Fin.val_last]; have := N32; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Fr

end
-- ==== Proof.KwShares.lean ====
/-
  Three of the kernel's arrays are each read through two windows. The pipeline holds an array once per window, so
  at the region's entry each of the three arrays, held whole, is dealt to its two windows as the two halves of the
  full share, and at the exit the halves, still at the entry contents because an input array is never written, are
  joined again. The output array has one window and is held whole throughout; after the region it holds what the
  write-backs left.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwBody
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the seven windows, one by one. -/
theorem arrBufs_chain (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_v1) ↦{fullShare} Vb main_v1) ∗ (((c : Thread nD τ).loc main_v13) ↦{fullShare} Vb main_v13)
          ∗ (((c : Thread nD τ).loc main_v14) ↦{fullShare} Vb main_v14) ∗ (((c : Thread nD τ).loc main_v15) ↦{fullShare} Vb main_v15)) := by
  unfold Pipeline.arrBufs
  exact bigSep_eq_bigSepL_of_eq [main_v1, main_v13, main_v14, main_v15] (by decide) (by decide) _

/-- The pipeline's arrays as whole buffers, each window's at its share. -/
theorem arrays_whole (c : Dev nD) (Fv : (w : Fin cfg0.W) → Buf (Elt F) ((cfg0.win w).arr.view.loc (c : Thread nD τ))) :
    ((dats m 0 c).arrays Fv : sProp 𝕄)
      = bigSep Finset.univ fun w : Fin 7 => ((((c : Thread nD τ).loc (Pipeline.arrRef spec0 w)) ↦{(dats m 0 c).share w} Fv w : sProp 𝕄)) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl

/-- The pipeline's arrays, window by window, each at its share. -/
theorem arrays_chain (c : Dev nD) (Fv : (w : Fin cfg0.W) → Buf (Elt F) ((cfg0.win w).arr.view.loc (c : Thread nD τ))) :
    ((dats m 0 c).arrays Fv : sProp 𝕄)
      = iprop((((c : Thread nD τ).loc main_v1) ↦{fullShare.left} Fv 0) ∗ (((c : Thread nD τ).loc main_v1) ↦{fullShare.right} Fv 1)
          ∗ (((c : Thread nD τ).loc main_v13) ↦{fullShare.left} Fv 2) ∗ (((c : Thread nD τ).loc main_v13) ↦{fullShare.right} Fv 3)
          ∗ (((c : Thread nD τ).loc main_v14) ↦{fullShare.left} Fv 4) ∗ (((c : Thread nD τ).loc main_v14) ↦{fullShare.right} Fv 5)
          ∗ (((c : Thread nD τ).loc main_v15) ↦{fullShare} Fv 6)) := by
  rw [arrays_whole, bigSep_W0, share0, share1, share2, share3, share4, share5, share6]

/-- ENTRY: the four buffers held whole are the seven windows' arrays at the entry contents. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  iintro ⟨H1, H13, H14, H15⟩
  ihave H1' := (pointsTo_share (PosShare.mem_left_op_right fullShare)).1 $$ H1
  ihave H13' := (pointsTo_share (PosShare.mem_left_op_right fullShare)).1 $$ H13
  ihave H14' := (pointsTo_share (PosShare.mem_left_op_right fullShare)).1 $$ H14
  icases H1' with ⟨H1l, H1r⟩
  icases H13' with ⟨H13l, H13r⟩
  icases H14' with ⟨H14l, H14r⟩
  isplitl [H1l]; · iexact H1l
  isplitl [H1r]; · iexact H1r
  isplitl [H13l]; · iexact H13l
  isplitl [H13r]; · iexact H13r
  isplitl [H14l]; · iexact H14l
  isplitl [H14r]; · iexact H14r
  iexact H15

/-- Core `c`'s buffers after the region: the output array at what the write-backs left, every other buffer as the
    region found it. -/
def W1 (c : Dev nD) : Valuation τ sig (Elt F) :=
  Function.update (Vv m c) (Proc.devRef .tc main_v15) ((dats m 0 c).arrAt 6 cfg0.N)

theorem W1_v15 (c : Dev nD) : W1 m c (Proc.devRef .tc main_v15) = (dats m 0 c).arrAt 6 cfg0.N := by
  unfold W1; exact Function.update_self _ _ _

theorem W1_of_ne (c : Dev nD) (b : Ref sig .tc) (hb : b ≠ main_v15) : W1 m c (Proc.devRef .tc b) = V m c b := by
  unfold W1; exact Function.update_of_ne (fun e => hb (Proc.devRef_injective _ e)) _ _

/-- EXIT: the seven windows' arrays at their final contents are the four buffers held whole at the contents after the
    region. -/
theorem join (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W1 m c (Proc.devRef .tc b)) := by
  rw [arrBufs_chain, arrays_chain]
  rw [(dats m 0 c).arrAt_in 0 rfl cfg0.N, (dats m 0 c).arrAt_in 1 rfl cfg0.N, (dats m 0 c).arrAt_in 2 rfl cfg0.N,
    (dats m 0 c).arrAt_in 3 rfl cfg0.N, (dats m 0 c).arrAt_in 4 rfl cfg0.N, (dats m 0 c).arrAt_in 5 rfl cfg0.N]
  rw [W1_of_ne m c main_v1 (by decide), W1_of_ne m c main_v13 (by decide), W1_of_ne m c main_v14 (by decide), W1_v15]
  show iprop((((c : Thread nD τ).loc main_v1) ↦{fullShare.left} V m c main_v1) ∗ (((c : Thread nD τ).loc main_v1) ↦{fullShare.right} V m c main_v1)
      ∗ (((c : Thread nD τ).loc main_v13) ↦{fullShare.left} V m c main_v13) ∗ (((c : Thread nD τ).loc main_v13) ↦{fullShare.right} V m c main_v13)
      ∗ (((c : Thread nD τ).loc main_v14) ↦{fullShare.left} V m c main_v14) ∗ (((c : Thread nD τ).loc main_v14) ↦{fullShare.right} V m c main_v14)
      ∗ (((c : Thread nD τ).loc main_v15) ↦{fullShare} (dats m 0 c).arrAt 6 cfg0.N)) ⊢ _
  iintro ⟨H1l, H1r, H13l, H13r, H14l, H14r, H15⟩
  isplitl [H1l H1r]
  · iapply (pointsTo_share (PosShare.mem_left_op_right fullShare)).2; isplitl [H1l] <;> iassumption
  isplitl [H13l H13r]
  · iapply (pointsTo_share (PosShare.mem_left_op_right fullShare)).2; isplitl [H13l] <;> iassumption
  isplitl [H14l H14r]
  · iapply (pointsTo_share (PosShare.mem_left_op_right fullShare)).2; isplitl [H14l] <;> iassumption
  iexact H15

/-- The buffers that are no window's array hold after the region what they held before it. -/
theorem rest_kept (c : Dev nD) :
    (Pipeline.unscopedRest (Ix := Unit) (Name := ℕ) (U := UR sig nD τ) (Lvl := ℕ) spec0 c (fun b => W1 m c (Proc.devRef .tc b)) : sProp 𝕄)
      = Pipeline.unscopedRest spec0 c (V m c) := by
  unfold Pipeline.unscopedRest
  refine bigSep_congr fun b hb => ?_
  dsimp only
  rw [W1_of_ne m c b (fun e => (Finset.mem_sdiff.mp hb).2 (Finset.mem_image.mpr ⟨6, Finset.mem_univ _, e.symm⟩))]

end Cert.Kernel.Fr

end
-- ==== Proof.KwLaunch.lean ====
/-
  The run of the whole program: seventeen host lines, the kernel region, five host lines. The host lines run within
  the core's unscoped buffers, held whole; the region takes the four buffers behind its windows out of them, dealt by
  shares, and gives them back with the output array at its final contents. From any memory with zero counters every
  weakly fair execution terminates, and in every final state each unscoped buffer holds what the five last lines
  compute from the contents after the region.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwShares
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev LL : GSem nD τ sig → Finset Unit := fun _ => ∅
abbrev lvl : GSem nD τ sig → Unit → ℕ := fun _ _ => 0
/-- No prefetched table. -/
abbrev adm : (p : Fin 1) → (pcfgs (F := F) p).Adm := fun p => (cfgs p).toPCfg_adm

/-- What rides beside the buffers through the host lines: the core's debts (none) and the generator register. -/
abbrev Rr (c : Dev nD) : sProp 𝕄 :=
  iprop((∃ W, owes (c : Thread nD τ) (0 : CellTallies nD τ sig Unit) W) ∗ (∃ r, prngReg c r))

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The host lines before the region. -/
def seg0 : Pipeline.HostSeg (Name := ℕ) (U := UR sig nD τ) (pcfgs (F := F)) defs₀ Variants.none LL lvl :=
  Pipeline.HostSeg.ofOps _ _ _ _ _ (Pipeline.ucRefs τ sig) hostOps0
    (fun op h => Pipeline.sub_ucRefs op ((List.forall_iff_forall_mem.mp hostOps0_sub) op h)) hostOps0_fresh (V₀ m) Rr

/-- The host lines after it, from the contents the region leaves. -/
def seg1 : Pipeline.HostSeg (Name := ℕ) (U := UR sig nD τ) (pcfgs (F := F)) defs₀ Variants.none LL lvl :=
  Pipeline.HostSeg.ofOps _ _ _ _ _ (Pipeline.ucRefs τ sig) hostOps1
    (fun op h => Pipeline.sub_ucRefs op ((List.forall_iff_forall_mem.mp hostOps1_sub) op h)) hostOps1_fresh (W1 m) Rr

set_option backward.isDefEq.respectTransparency.types false in
/-- THE REGION: entered from what the first lines left, the four buffers behind the windows dealt to them; left with
    the output array at its final contents and the halves joined again. -/
def reg0 : Pipeline.RegionSeg (pcfgs (F := F)) adm (dats m) () defs₀ Variants.none LL lvl 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ LL lvl 0 fun _ _ => rfl
  pre c := iprop(StableHlo.held (c : Thread nD τ) (Pipeline.ucRefs τ sig) (Vv m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest spec0 c (V m c)
  hentry c := by
    rw [show StableHlo.held (c : Thread nD τ) (Pipeline.ucRefs τ sig) (Vv m c) = unscopedBufs c (V m c) from (Pipeline.unscopedBufs_held c _).symm,
      Pipeline.unscopedBufs_split₀ cfgs 0 winFacts₀0.arr_unscoped c (V m c)]
    iintro ⟨⟨⟨Hab, Hrest⟩, ⟨HO, Hp⟩⟩, -, -⟩
    ihave Ha := (deal m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec0 c from by
      unfold Pipeline.ΦA
      iintro ⟨Hp, -, Hr⟩
      isplitl [Hr] <;> iassumption).trans (hin m c)
  hout c :=
    (hout m c).trans (by
      rw [Pipeline.ownSems0_none]; unfold Pipeline.ΦA
      iintro ⟨Hr, Hp⟩
      isplitl [Hp]; · iexact Hp
      isplitr; · iempintro
      iexact Hr)
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c (fun b => W1 m c (Proc.devRef .tc b)), rest_kept]
    iintro ⟨Ha, HO, Hp, Hrest⟩
    ihave Hab := (join m c) $$ Ha
    imodintro
    isplitl [Hab Hrest]
    · isplitl [Hab] <;> iassumption
    isplitl [HO]
    · unfold Pipeline.Dat.owesAt Pipeline.owesWithin
      icases HO with ⟨%W, -, HO⟩; iexists W; iexact HO
    iexact Hp

/-- @main as the list of the three. -/
abbrev segs : List (Pipeline.Seg (pcfgs (F := F)) adm (dats m) () defs₀ Variants.none LL lvl) := [.host (seg0 m), .region (reg0 m), .host (seg1 m)]

/-- Core `c`'s buffers at the end. -/
abbrev Wfin (c : Dev nD) : Valuation τ sig (Elt F) := StableHlo.after hostOps1 (W1 m c)

set_option backward.isDefEq.respectTransparency.types false in
/-- From any memory with zero counters every weakly fair execution of @main terminates, and in every final state
    each unscoped buffer of every core holds its contents after the last host lines. -/
theorem run_main : θ_run defs (onTc (τ := τ) (main (F := F))) ⟨m, fun _ => 0, ρ⟩
    (fun r => ∀ c : Dev nD, ∀ b ∈ (Finset.univ.filter fun b : Ref sig .tc => ¬ b.isScoped), r.2.mem ((c : Thread nD τ).loc b) = Wfin m c (Proc.devRef .tc b)) :=
  Pipeline.θ_run_regions_kit (pcfgs (F := F)) adm (dats m) () cellOf_inj emb₁ defs₀ Variants.none LL lvl m ρ main (segs m)
    (fun c Q => by rw [main_segs adm (dats m) () Variants.none LL lvl (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rr c))
    (Tₙ := fun c => iprop(StableHlo.held (c : Thread nD τ) (Pipeline.ucRefs τ sig) (Wfin m c) ∗ (∃ r, prngReg c r)))
    (hch := ⟨fun _ => .rfl, fun _ => .rfl, fun _ => .rfl, fun c => by
      show iprop(StableHlo.held (c : Thread nD τ) (Pipeline.ucRefs τ sig) (StableHlo.after hostOps1 (W1 m c)) ∗ Rr c) ⊢ _
      iintro ⟨Hh, HO, Hp⟩
      isplitr [HO]
      · isplitl [Hh] <;> iassumption
      · iexact HO⟩)
    (hinit := by
      refine Pipeline.initEach LL lvl fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => ∀ b ∈ (Finset.univ.filter fun b : Ref sig .tc => ¬ b.isScoped), s.mem ((c : Thread nD τ).loc b) = Wfin m c (Proc.devRef .tc b))
    (hfin := fun c s' => by
      rw [show StableHlo.held (c : Thread nD τ) (Pipeline.ucRefs τ sig) (Wfin m c) = unscopedBufs c (fun b => Wfin m c (Proc.devRef .tc b)) from (Pipeline.unscopedBufs_held c _).symm]
      unfold unscopedBufs
      iintro ⟨⟨Hh, -⟩, HSI⟩
      imodintro
      iapply (pointsTo_read_all (Finset.univ.filter fun b : Ref sig .tc => ¬ b.isScoped) (fun b => (c : Thread nD τ).loc b) (fun b => Wfin m c (Proc.devRef .tc b)) s')
      isplitl [Hh] <;> iassumption)
    (hQ := fun _ h => h)

end Cert.Kernel.Fr

end
-- ==== Proof.KwArgs.lean ====
/-
  No host line writes an argument array, and neither is a window's array: both hold at the end what they held at
  launch.
-/
import proofs.«175888_j22187801051866_2_alg».proof.Proof.Gen.Kernel.Launch
import proofs.«175888_j22187801051866_2_alg».proof.Proof.Gen.Kernel.Skeleton
import proofs.«175888_j22187801051866_2_alg».proof.Proof.Gen.Kernel.Points
import proofs.«175888_j22187801051866_2_alg».proof.Proof.KwLaunch
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_keeps_arg0 : ∀ op ∈ (hostOps0 : List (HloOp τ sig (Elt F))), Proc.devRef (τ := τ) .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))

theorem hostOps0_keeps_arg1 : ∀ op ∈ (hostOps0 : List (HloOp τ sig (Elt F))), Proc.devRef (τ := τ) .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))

theorem hostOps1_keeps_arg0 : ∀ op ∈ (hostOps1 : List (HloOp τ sig (Elt F))), Proc.devRef (τ := τ) .tc main_arg0 ∉ op.writes := by
  intro op hop
  simp only [hostOps1, List.mem_cons, List.mem_nil_iff, or_false] at hop
  rcases hop with rfl | rfl | rfl | rfl | rfl
  all_goals (simp only [StableHlo.nullary_writes, StableHlo.unary_writes, StableHlo.binary_writes, StableHlo.reshape_writes, Finset.mem_singleton]; exact StableHlo.devRef_ne_of_ne (by decide))

theorem hostOps1_keeps_arg1 : ∀ op ∈ (hostOps1 : List (HloOp τ sig (Elt F))), Proc.devRef (τ := τ) .tc main_arg1 ∉ op.writes := by
  intro op hop
  simp only [hostOps1, List.mem_cons, List.mem_nil_iff, or_false] at hop
  rcases hop with rfl | rfl | rfl | rfl | rfl
  all_goals (simp only [StableHlo.nullary_writes, StableHlo.unary_writes, StableHlo.binary_writes, StableHlo.reshape_writes, Finset.mem_singleton]; exact StableHlo.devRef_ne_of_ne (by decide))

theorem Wfin_arg0 (c : Dev nD) : Wfin m c (Proc.devRef .tc main_arg0) = m ((c : Thread nD τ).loc main_arg0) := by
  show StableHlo.after hostOps1 (W1 m c) (Proc.devRef .tc main_arg0) = _
  rw [StableHlo.after_of_forall_not_mem (b := Proc.devRef .tc main_arg0) hostOps1 (W1 m c) hostOps1_keeps_arg0,
    W1_of_ne m c main_arg0 (by decide)]
  exact StableHlo.after_of_forall_not_mem (b := Proc.devRef .tc main_arg0) hostOps0 (V₀ m c) hostOps0_keeps_arg0

theorem Wfin_arg1 (c : Dev nD) : Wfin m c (Proc.devRef .tc main_arg1) = m ((c : Thread nD τ).loc main_arg1) := by
  show StableHlo.after hostOps1 (W1 m c) (Proc.devRef .tc main_arg1) = _
  rw [StableHlo.after_of_forall_not_mem (b := Proc.devRef .tc main_arg1) hostOps1 (W1 m c) hostOps1_keeps_arg1,
    W1_of_ne m c main_arg1 (by decide)]
  exact StableHlo.after_of_forall_not_mem (b := Proc.devRef .tc main_arg1) hostOps0 (V₀ m c) hostOps0_keeps_arg1

/-- THE FRAME: the program runs to the end, nothing faulting, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 (by decide)).trans (Wfin_arg0 m c), (h c main_arg1 (by decide)).trans (Wfin_arg1 m c)⟩)
    (run_main m ρ)

end Cert.Kernel.Fr

end
-- ==== Proof.KiConds.lean ====
/-
  The grid of the kernel has 32 points, point `t` being batch `t / 8`, row block `t / 4 % 2`, column block `t % 4`.
  The body's two conditionals depend on the point only: the accumulator is reset at the first point of a batch
  (`t % 8 = 0`) and copied to the output block at the last (`t % 8 = 7`). Both are decided over the grid here, with
  the schedule facts that follow from them: the output block is written back exactly where it is stored.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import Idealize.ShloMosaic.Lib.Pipeline.FrameBody
import Idealize.ShloMosaic.Lib.Pipeline.Regions
import Idealize.ShloMosaic.Lib.Tactic
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset: row block and column block both zero. -/
abbrev condReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem condReset_iff : ∀ t : Fin cfg0.N, condReset (grid0.coords t) ↔ t.val % 8 = 0 :=
  (by decide +kernel : ∀ t : Fin grid0.N, condReset (grid0.coords t) ↔ t.val % 8 = 0)

/-- The accumulator is copied out: the last row block and the last column block. -/
abbrev condFlush (i : grid0.Coords) : Prop := k0_cond2 i = 1#1
theorem condFlush_iff : ∀ t : Fin cfg0.N, condFlush (grid0.coords t) ↔ t.val % 8 = 7 :=
  (by decide +kernel : ∀ t : Fin grid0.N, condFlush (grid0.coords t) ↔ t.val % 8 = 7)

/-- The input windows are never idle. -/
theorem live_in : ∀ (w : Fin 7), w.val < 6 → ∀ t : Fin cfg0.N, cfg0.idle w (grid0.coords t) = false := by decide +kernel
/-- Away from a batch's last point the output window is idle and is not written back. -/
theorem idle_out : ∀ t : Fin cfg0.N, ¬condFlush (grid0.coords t) → cfg0.idle 6 (grid0.coords t) = true := by decide +kernel
theorem noFlush_out : ∀ t : Fin cfg0.N, ¬condFlush (grid0.coords t) → (cfg0.win 6).flush t = false := by decide +kernel
/-- At a batch's last point it is live. -/
theorem live_out : ∀ t : Fin cfg0.N, condFlush (grid0.coords t) → cfg0.idle 6 (grid0.coords t) = false := by decide +kernel

/-- The windows' current staging memrefs at a point, as the pipeline passes them, and the scratch. -/
abbrev ms0 (t : Fin cfg0.N) : Memref sig .tc .vmem S1x2048x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2048 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)
abbrev scM : Memref sig .tc .vmem S1x1x1 .f32 := Memref.whole cc0_scratch0
/-- The scratch and one staging buffer of the output window as views: contents are stated through them. -/
abbrev VS : View sig .tc .vmem S1x1x1 .f32 := scM.view
abbrev VO : View sig .tc .vmem S1x1x1 .f32 := (Memref.whole cc0_stg6_0 : Memref sig .tc .vmem S1x1x1 .f32).view

end Cert.KernelIdeal.Fr

end
-- ==== Proof.KiRunA.lean ====
/-
  The kernel body run at the first point of a batch: the accumulator is reset to zero, the tile's sum is added
  to it, and nothing is copied to the output block, whose buffer is handed back as it was found.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiConds
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch accumulator (last store first) at a point where the
    accumulator is reset and not copied out, with the body's triple on whole memrefs: the six input buffers at
    their contents and the output buffer at its contents are handed back unchanged. -/
noncomputable def kernelRunA (c : Dev nD) (i : grid0.Coords) (arg3 : Memref sig .tc .vmem S1x2048x64 .bf16) (harg3 : arg3.IsWhole) (arg4 : Memref sig .tc .vmem S1x1024x64 .bf16) (harg4 : arg4.IsWhole) (arg5 : Memref sig .tc .vmem S1x1x2048 .i32) (harg5 : arg5.IsWhole) (arg6 : Memref sig .tc .vmem S1x1x1024 .i32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1x1x1 .f32) (harg9 : arg9.IsWhole) (arg10 : Memref sig .tc .vmem S1x1x1 .f32) (harg10 : arg10.IsWhole) (hc0 : condReset i) (hc1 : ¬condFlush i)
    (x0 : Vec F S1x2048x64 .bf16) (x1 : Vec F S1x1024x64 .bf16) (x2 : Vec F S1x1x2048 .i32) (x3 : Vec F S1x1x1024 .i32) (x4 : Vec F S1x1x2048 .f32) (x5 : Vec F S1x1x1024 .f32) :
    Σ' (L6 : List (View.Piece (Elt F) S1x1x1 .f32)), { LS : List (View.Piece (Elt F) S1x1x1 .f32) //
      ∀ (xi6 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc0__ebloss_kernel i arg3 harg3 arg4 harg4 arg5 harg5 arg6 harg6 arg7 harg7 arg8 harg8 arg9 harg9 arg10 harg10) K } := by
  refine ⟨[], ?_, fun xi6 E K => ?run⟩
  case run =>
    simp only [cc0__ebloss_kernel_eq_skeleton]; unfold cc0__ebloss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Fr

end
-- ==== Proof.KiRunB.lean ====
/-
  The kernel body run at a point that is neither the first nor the last of its batch: the tile's sum is added to
  the accumulator, which the point before left in the scratch; nothing is copied to the output block, whose buffer
  is handed back as it was found.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiConds
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the scratch accumulator at a point where it is neither reset nor copied
    out, the accumulator found at `xs`, with the body's triple on whole memrefs. -/
noncomputable def kernelRunB (c : Dev nD) (i : grid0.Coords) (arg3 : Memref sig .tc .vmem S1x2048x64 .bf16) (harg3 : arg3.IsWhole) (arg4 : Memref sig .tc .vmem S1x1024x64 .bf16) (harg4 : arg4.IsWhole) (arg5 : Memref sig .tc .vmem S1x1x2048 .i32) (harg5 : arg5.IsWhole) (arg6 : Memref sig .tc .vmem S1x1x1024 .i32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1x1x1 .f32) (harg9 : arg9.IsWhole) (arg10 : Memref sig .tc .vmem S1x1x1 .f32) (harg10 : arg10.IsWhole) (hc0 : ¬condReset i) (hc1 : ¬condFlush i)
    (x0 : Vec F S1x2048x64 .bf16) (x1 : Vec F S1x1024x64 .bf16) (x2 : Vec F S1x1x2048 .i32) (x3 : Vec F S1x1x1024 .i32) (x4 : Vec F S1x1x2048 .f32) (x5 : Vec F S1x1x1024 .f32) (xs : Vec F S1x1x1 .f32) :
    Σ' (L6 : List (View.Piece (Elt F) S1x1x1 .f32)), { LS : List (View.Piece (Elt F) S1x1x1 .f32) //
      ∀ (xi6 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc0__ebloss_kernel i arg3 harg3 arg4 harg4 arg5 harg5 arg6 harg6 arg7 harg7 arg8 harg8 arg9 harg9 arg10 harg10) K } := by
  refine ⟨[], ?_, fun xi6 E K => ?run⟩
  case run =>
    simp only [cc0__ebloss_kernel_eq_skeleton]; unfold cc0__ebloss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Fr

end
-- ==== Proof.KiRunC.lean ====
/-
  The kernel body run at the last point of a batch: the tile's sum is added to the accumulator the point before
  left in the scratch, and the accumulator is copied to the output block.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiConds
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer and in the scratch accumulator at a point where
    the accumulator is copied out and not reset, the accumulator found at `xs`, with the body's triple on whole
    memrefs. -/
noncomputable def kernelRunC (c : Dev nD) (i : grid0.Coords) (arg3 : Memref sig .tc .vmem S1x2048x64 .bf16) (harg3 : arg3.IsWhole) (arg4 : Memref sig .tc .vmem S1x1024x64 .bf16) (harg4 : arg4.IsWhole) (arg5 : Memref sig .tc .vmem S1x1x2048 .i32) (harg5 : arg5.IsWhole) (arg6 : Memref sig .tc .vmem S1x1x1024 .i32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1x1x1 .f32) (harg9 : arg9.IsWhole) (arg10 : Memref sig .tc .vmem S1x1x1 .f32) (harg10 : arg10.IsWhole) (hc0 : ¬condReset i) (hc1 : condFlush i)
    (x0 : Vec F S1x2048x64 .bf16) (x1 : Vec F S1x1024x64 .bf16) (x2 : Vec F S1x1x2048 .i32) (x3 : Vec F S1x1x1024 .i32) (x4 : Vec F S1x1x2048 .f32) (x5 : Vec F S1x1x1024 .f32) (xs : Vec F S1x1x1 .f32) :
    Σ' (L6 : List (View.Piece (Elt F) S1x1x1 .f32)), { LS : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc0__ebloss_kernel i arg3 harg3 arg4 harg4 arg5 harg5 arg6 harg6 arg7 harg7 arg8 harg8 arg9 harg9 arg10 harg10) K } := by
  refine ⟨?_, ?_, fun E K => ?run⟩
  case run =>
    simp only [cc0__ebloss_kernel_eq_skeleton]; unfold cc0__ebloss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.KernelIdeal.Fr

end
-- ==== Proof.KiData.lean ====
/-
  The proof data of the kernel's pipeline.

  The region finds its arrays as the host lines before it leave them. The six input windows read three arrays, two
  windows each (a row block and a column block of the same array): every input buffer holds its array's block at
  every point, and each array is held by its two windows at the two halves of the full share. The scratch holds the
  running sum of the batch's tiles: after point `n` it is what the body's stores leave there, computed from the
  point's six blocks and, except at the first point of a batch, from what the point before left. The output block's
  buffer is stored only at the last point of a batch, where it receives the running sum.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiRunA
import proofs.«175888_j22187801051866_2_alg».proof.Proof.KiRunB
import proofs.«175888_j22187801051866_2_alg».proof.Proof.KiRunC
import Idealize.ShloMosaic.Lib.Ring
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers at launch, as a valuation, -/
abbrev V₀ (c : Dev nD) : Valuation τ sig (Elt F) := fun b => m (c, b)
/-- and when the region is entered: the host lines before it have run. -/
abbrev Vv (c : Dev nD) : Valuation τ sig (Elt F) := StableHlo.after hostOps0 (V₀ m c)
abbrev V (c : Dev nD) (b : Ref sig .tc) : Buf (Elt F) ((c : Thread nD τ).loc b) := Vv m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input's current buffer holds its block at every point, fetched there or not: where it is not fetched the
    block index has not moved. For any proof data whose array is the region's and whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the scratch and the output block hold after a point -/

/-- The class invariant: the scratch at anything, the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The scratch after a point where the accumulator is reset. -/
def soutA (c : Dev nD) (t : Fin cfg0.N) (hc0 : condReset (grid0.coords t)) (hc1 : ¬condFlush (grid0.coords t)) : Vec F S1x1x1 .f32 :=
  VS.read (Elt F) (VS.writes (Elt F) VS.junk (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.1)
theorem scoverA (c : Dev nD) (t : Fin cfg0.N) (hc0 : condReset (grid0.coords t)) (hc1 : ¬condFlush (grid0.coords t)) (y : S1x1x1.Idx) :
    ∃ pc ∈ (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.1, y ∈ pc.1.set :=
  View.cover_of_tiledL (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.1 S1x1x1.size (by sl_kernel_rfl) y

/-- The scratch after a point in the middle of a batch, found at `xs`. -/
def soutB (c : Dev nD) (t : Fin cfg0.N) (hc0 : ¬condReset (grid0.coords t)) (hc1 : ¬condFlush (grid0.coords t)) (xs : Vec F S1x1x1 .f32) : Vec F S1x1x1 .f32 :=
  VS.read (Elt F) (VS.writes (Elt F) VS.junk (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1)
theorem scoverB (c : Dev nD) (t : Fin cfg0.N) (hc0 : ¬condReset (grid0.coords t)) (hc1 : ¬condFlush (grid0.coords t)) (xs : Vec F S1x1x1 .f32) (y : S1x1x1.Idx) :
    ∃ pc ∈ (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1, y ∈ pc.1.set :=
  View.cover_of_tiledL (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1 S1x1x1.size (by sl_kernel_rfl) y

/-- The scratch and the output block's buffer after the last point of a batch, the scratch found at `xs`. -/
def soutC (c : Dev nD) (t : Fin cfg0.N) (hc0 : ¬condReset (grid0.coords t)) (hc1 : condFlush (grid0.coords t)) (xs : Vec F S1x1x1 .f32) : Vec F S1x1x1 .f32 :=
  VS.read (Elt F) (VS.writes (Elt F) VS.junk (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1)
theorem scoverC (c : Dev nD) (t : Fin cfg0.N) (hc0 : ¬condReset (grid0.coords t)) (hc1 : condFlush (grid0.coords t)) (xs : Vec F S1x1x1 .f32) (y : S1x1x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1, y ∈ pc.1.set :=
  View.cover_of_tiledL (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).2.1 S1x1x1.size (by sl_kernel_rfl) y
def outC (c : Dev nD) (t : Fin cfg0.N) (hc0 : ¬condReset (grid0.coords t)) (hc1 : condFlush (grid0.coords t)) (xs : Vec F S1x1x1 .f32) : Vec F S1x1x1 .f32 :=
  VO.read (Elt F) (VO.writes (Elt F) VO.junk (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).1)
theorem coverC (c : Dev nD) (t : Fin cfg0.N) (hc0 : ¬condReset (grid0.coords t)) (hc1 : condFlush (grid0.coords t)) (xs : Vec F S1x1x1 .f32) (y : S1x1x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).1, y ∈ pc.1.set :=
  View.cover_of_tiledL (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) xs).1 S1x1x1.size (by sl_kernel_rfl) y

theorem N32 : cfg0.N = 32 := N_0

/-- THE RUNNING SUM: what the scratch holds after the body at position `n`. -/
def accAt (c : Dev nD) : (n : ℕ) → n < cfg0.N → Vec F S1x1x1 .f32
  | 0, hn => soutA m c ⟨0, hn⟩ ((condReset_iff ⟨0, hn⟩).mpr (Nat.zero_mod _)) (fun h => by have h' := (condFlush_iff ⟨0, hn⟩).mp h; simp at h')
  | n + 1, hn =>
    if h0 : (n + 1) % 8 = 0 then
      soutA m c ⟨n + 1, hn⟩ ((condReset_iff ⟨n + 1, hn⟩).mpr h0) (fun h => by have h' := (condFlush_iff ⟨n + 1, hn⟩).mp h; dsimp only at h'; omega)
    else if h1 : (n + 1) % 8 = 7 then
      soutC m c ⟨n + 1, hn⟩ (fun h => h0 ((condReset_iff ⟨n + 1, hn⟩).mp h)) ((condFlush_iff ⟨n + 1, hn⟩).mpr h1) (accAt c n (Nat.lt_of_succ_lt hn))
    else
      soutB m c ⟨n + 1, hn⟩ (fun h => h0 ((condReset_iff ⟨n + 1, hn⟩).mp h)) (fun h => h1 ((condFlush_iff ⟨n + 1, hn⟩).mp h)) (accAt c n (Nat.lt_of_succ_lt hn))

theorem accAt_A (c : Dev nD) (t : Fin cfg0.N) (h0 : t.val % 8 = 0) (hc0 : condReset (grid0.coords t)) (hc1 : ¬condFlush (grid0.coords t)) :
    accAt m c t.val t.isLt = soutA m c t hc0 hc1 := by
  obtain ⟨n, hn⟩ := t
  cases n with
  | zero => rfl
  | succ n => exact (dif_pos h0).trans rfl

theorem accAt_B (c : Dev nD) (t : Fin cfg0.N) (h0 : ¬t.val % 8 = 0) (h1 : ¬t.val % 8 = 7) (hc0 : ¬condReset (grid0.coords t)) (hc1 : ¬condFlush (grid0.coords t)) :
    accAt m c t.val t.isLt = soutB m c t hc0 hc1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg0.N) (h0 : ¬t.val % 8 = 0) (h1 : t.val % 8 = 7) (hc0 : ¬condReset (grid0.coords t)) (hc1 : condFlush (grid0.coords t)) :
    accAt m c t.val t.isLt = soutC m c t hc0 hc1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block's buffer holds after point `t`: at the last point of a batch what the body stores there;
    elsewhere the buffer is idle and this value is not consulted. -/
def outAt (c : Dev nD) (t : Fin cfg0.N) : Vec F S1x1x1 .f32 :=
  if h1 : t.val % 8 = 7 then
    outC m c t (fun h => by have h' := (condReset_iff t).mp h; omega) ((condFlush_iff t).mpr h1) (accAt m c (t.val - 1) (Nat.lt_of_le_of_lt (Nat.sub_le _ _) t.isLt))
  else VO.read (Elt F) VO.junk

theorem outAt_C (c : Dev nD) (t : Fin cfg0.N) (h1 : t.val % 8 = 7) (hc0 : ¬condReset (grid0.coords t)) (hc1 : condFlush (grid0.coords t)) :
    outAt m c t = outC m c t hc0 hc1 (accAt m c (t.val - 1) (Nat.lt_of_le_of_lt (Nat.sub_le _ _) t.isLt)) := by
  unfold outAt; exact (dif_pos h1).trans rfl

/-- The region invariant before position `n`: before the first point the scratch holds anything; afterwards the
    running sum the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The proof data of the one pipeline on core `c`. The two windows on one array hold it at the two halves of the
    full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

end Cert.KernelIdeal.Fr

end
-- ==== Proof.KiBody.lean ====
/-
  The body obligation of the kernel's pipeline: at every grid point the body, handed the invariant and the seven
  windows' buffers as the proof data says they are found, returns them as the proof data says they are left. The
  point's position in its batch (first, last, neither) says which of the body's three runs applies.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiData
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt N32
  by_cases h0 : t.val % 8 = 0
  · -- the first point of a batch
    have hc0 : condReset (grid0.coords t) := (condReset_iff t).mpr h0
    have hc1 : ¬condFlush (grid0.coords t) := fun h => by have h' := (condFlush_iff t).mp h; omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [show (dats m 0 c).leavesExact 5 t = owns (c : Thread nD τ) (ms5 t) fullShare ((dats m 0 c).after 5 t) from by
      unfold Dat.leavesExact; rw [live5 t], after5]
    rw [Dat.leavesExact_idle (dats m 0 c) 6 t (idle_out t hc1) (noFlush_out t hc1)]
    rw [accAt_A m c t h0 hc0 hc1]
    unfold soutA
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (scoverA m c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (scoverA m c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    have hc0 : ¬condReset (grid0.coords t) := fun h => h0 ((condReset_iff t).mp h)
    by_cases h1 : t.val % 8 = 7
    · -- the last point of a batch
      have hc1 : condFlush (grid0.coords t) := (condFlush_iff t).mpr h1
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live_out t hc1], after6]
      rw [accAt_C m c t h0 h1 hc0 hc1, outAt_C m c t h1 hc0 hc1]
      unfold soutC outC
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scoverC m c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC m c t hc0 hc1 _)
    · -- a point in the middle of a batch
      have hc1 : ¬condFlush (grid0.coords t) := fun h => h1 ((condFlush_iff t).mp h)
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle_out t hc1) (noFlush_out t hc1)]
      rw [accAt_B m c t h0 h1 hc0 hc1]
      unfold soutB
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc0 hc1 (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (scoverB m c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the running sum's value is forgotten. -/
theorem hout (c : Dev nD) : (dats m 0 c).Φ (Fin.last cfg0.N) ⊢ Pipeline.ΦA spec0 c := by
  have ht : (Fin.last cfg0.N).val ≠ 0 := by rw [Fin.val_last]; have := N32; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Fr

end
-- ==== Proof.KiShares.lean ====
/-
  Three of the kernel's arrays are each read through two windows. The pipeline holds an array once per window, so
  at the region's entry each of the three arrays, held whole, is dealt to its two windows as the two halves of the
  full share, and at the exit the halves, still at the entry contents because an input array is never written, are
  joined again. The output array has one window and is held whole throughout; after the region it holds what the
  write-backs left.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiBody
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the seven windows, one by one. -/
theorem arrBufs_chain (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_v1) ↦{fullShare} Vb main_v1) ∗ (((c : Thread nD τ).loc main_v13) ↦{fullShare} Vb main_v13)
          ∗ (((c : Thread nD τ).loc main_v14) ↦{fullShare} Vb main_v14) ∗ (((c : Thread nD τ).loc main_v15) ↦{fullShare} Vb main_v15)) := by
  unfold Pipeline.arrBufs
  exact bigSep_eq_bigSepL_of_eq [main_v1, main_v13, main_v14, main_v15] (by decide) (by decide) _

/-- The pipeline's arrays as whole buffers, each window's at its share. -/
theorem arrays_whole (c : Dev nD) (Fv : (w : Fin cfg0.W) → Buf (Elt F) ((cfg0.win w).arr.view.loc (c : Thread nD τ))) :
    ((dats m 0 c).arrays Fv : sProp 𝕄)
      = bigSep Finset.univ fun w : Fin 7 => ((((c : Thread nD τ).loc (Pipeline.arrRef spec0 w)) ↦{(dats m 0 c).share w} Fv w : sProp 𝕄)) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl

/-- The pipeline's arrays, window by window, each at its share. -/
theorem arrays_chain (c : Dev nD) (Fv : (w : Fin cfg0.W) → Buf (Elt F) ((cfg0.win w).arr.view.loc (c : Thread nD τ))) :
    ((dats m 0 c).arrays Fv : sProp 𝕄)
      = iprop((((c : Thread nD τ).loc main_v1) ↦{fullShare.left} Fv 0) ∗ (((c : Thread nD τ).loc main_v1) ↦{fullShare.right} Fv 1)
          ∗ (((c : Thread nD τ).loc main_v13) ↦{fullShare.left} Fv 2) ∗ (((c : Thread nD τ).loc main_v13) ↦{fullShare.right} Fv 3)
          ∗ (((c : Thread nD τ).loc main_v14) ↦{fullShare.left} Fv 4) ∗ (((c : Thread nD τ).loc main_v14) ↦{fullShare.right} Fv 5)
          ∗ (((c : Thread nD τ).loc main_v15) ↦{fullShare} Fv 6)) := by
  rw [arrays_whole, bigSep_W0, share0, share1, share2, share3, share4, share5, share6]

/-- ENTRY: the four buffers held whole are the seven windows' arrays at the entry contents. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  iintro ⟨H1, H13, H14, H15⟩
  ihave H1' := (pointsTo_share (PosShare.mem_left_op_right fullShare)).1 $$ H1
  ihave H13' := (pointsTo_share (PosShare.mem_left_op_right fullShare)).1 $$ H13
  ihave H14' := (pointsTo_share (PosShare.mem_left_op_right fullShare)).1 $$ H14
  icases H1' with ⟨H1l, H1r⟩
  icases H13' with ⟨H13l, H13r⟩
  icases H14' with ⟨H14l, H14r⟩
  isplitl [H1l]; · iexact H1l
  isplitl [H1r]; · iexact H1r
  isplitl [H13l]; · iexact H13l
  isplitl [H13r]; · iexact H13r
  isplitl [H14l]; · iexact H14l
  isplitl [H14r]; · iexact H14r
  iexact H15

/-- Core `c`'s buffers after the region: the output array at what the write-backs left, every other buffer as the
    region found it. -/
def W1 (c : Dev nD) : Valuation τ sig (Elt F) :=
  Function.update (Vv m c) (Proc.devRef .tc main_v15) ((dats m 0 c).arrAt 6 cfg0.N)

theorem W1_v15 (c : Dev nD) : W1 m c (Proc.devRef .tc main_v15) = (dats m 0 c).arrAt 6 cfg0.N := by
  unfold W1; exact Function.update_self _ _ _

theorem W1_of_ne (c : Dev nD) (b : Ref sig .tc) (hb : b ≠ main_v15) : W1 m c (Proc.devRef .tc b) = V m c b := by
  unfold W1; exact Function.update_of_ne (fun e => hb (Proc.devRef_injective _ e)) _ _

/-- EXIT: the seven windows' arrays at their final contents are the four buffers held whole at the contents after the
    region. -/
theorem join (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W1 m c (Proc.devRef .tc b)) := by
  rw [arrBufs_chain, arrays_chain]
  rw [(dats m 0 c).arrAt_in 0 rfl cfg0.N, (dats m 0 c).arrAt_in 1 rfl cfg0.N, (dats m 0 c).arrAt_in 2 rfl cfg0.N,
    (dats m 0 c).arrAt_in 3 rfl cfg0.N, (dats m 0 c).arrAt_in 4 rfl cfg0.N, (dats m 0 c).arrAt_in 5 rfl cfg0.N]
  rw [W1_of_ne m c main_v1 (by decide), W1_of_ne m c main_v13 (by decide), W1_of_ne m c main_v14 (by decide), W1_v15]
  show iprop((((c : Thread nD τ).loc main_v1) ↦{fullShare.left} V m c main_v1) ∗ (((c : Thread nD τ).loc main_v1) ↦{fullShare.right} V m c main_v1)
      ∗ (((c : Thread nD τ).loc main_v13) ↦{fullShare.left} V m c main_v13) ∗ (((c : Thread nD τ).loc main_v13) ↦{fullShare.right} V m c main_v13)
      ∗ (((c : Thread nD τ).loc main_v14) ↦{fullShare.left} V m c main_v14) ∗ (((c : Thread nD τ).loc main_v14) ↦{fullShare.right} V m c main_v14)
      ∗ (((c : Thread nD τ).loc main_v15) ↦{fullShare} (dats m 0 c).arrAt 6 cfg0.N)) ⊢ _
  iintro ⟨H1l, H1r, H13l, H13r, H14l, H14r, H15⟩
  isplitl [H1l H1r]
  · iapply (pointsTo_share (PosShare.mem_left_op_right fullShare)).2; isplitl [H1l] <;> iassumption
  isplitl [H13l H13r]
  · iapply (pointsTo_share (PosShare.mem_left_op_right fullShare)).2; isplitl [H13l] <;> iassumption
  isplitl [H14l H14r]
  · iapply (pointsTo_share (PosShare.mem_left_op_right fullShare)).2; isplitl [H14l] <;> iassumption
  iexact H15

/-- The buffers that are no window's array hold after the region what they held before it. -/
theorem rest_kept (c : Dev nD) :
    (Pipeline.unscopedRest (Ix := Unit) (Name := ℕ) (U := UR sig nD τ) (Lvl := ℕ) spec0 c (fun b => W1 m c (Proc.devRef .tc b)) : sProp 𝕄)
      = Pipeline.unscopedRest spec0 c (V m c) := by
  unfold Pipeline.unscopedRest
  refine bigSep_congr fun b hb => ?_
  dsimp only
  rw [W1_of_ne m c b (fun e => (Finset.mem_sdiff.mp hb).2 (Finset.mem_image.mpr ⟨6, Finset.mem_univ _, e.symm⟩))]

end Cert.KernelIdeal.Fr

end
-- ==== Proof.KiLaunch.lean ====
/-
  The run of the whole program: seventeen host lines, the kernel region, five host lines. The host lines run within
  the core's unscoped buffers, held whole; the region takes the four buffers behind its windows out of them, dealt by
  shares, and gives them back with the output array at its final contents. From any memory with zero counters every
  weakly fair execution terminates, and in every final state each unscoped buffer holds what the five last lines
  compute from the contents after the region.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiShares
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev LL : GSem nD τ sig → Finset Unit := fun _ => ∅
abbrev lvl : GSem nD τ sig → Unit → ℕ := fun _ _ => 0
/-- No prefetched table. -/
abbrev adm : (p : Fin 1) → (pcfgs (F := F) p).Adm := fun p => (cfgs p).toPCfg_adm

/-- What rides beside the buffers through the host lines: the core's debts (none) and the generator register. -/
abbrev Rr (c : Dev nD) : sProp 𝕄 :=
  iprop((∃ W, owes (c : Thread nD τ) (0 : CellTallies nD τ sig Unit) W) ∗ (∃ r, prngReg c r))

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The host lines before the region. -/
def seg0 : Pipeline.HostSeg (Name := ℕ) (U := UR sig nD τ) (pcfgs (F := F)) defs₀ Variants.none LL lvl :=
  Pipeline.HostSeg.ofOps _ _ _ _ _ (Pipeline.ucRefs τ sig) hostOps0
    (fun op h => Pipeline.sub_ucRefs op ((List.forall_iff_forall_mem.mp hostOps0_sub) op h)) hostOps0_fresh (V₀ m) Rr

/-- The host lines after it, from the contents the region leaves. -/
def seg1 : Pipeline.HostSeg (Name := ℕ) (U := UR sig nD τ) (pcfgs (F := F)) defs₀ Variants.none LL lvl :=
  Pipeline.HostSeg.ofOps _ _ _ _ _ (Pipeline.ucRefs τ sig) hostOps1
    (fun op h => Pipeline.sub_ucRefs op ((List.forall_iff_forall_mem.mp hostOps1_sub) op h)) hostOps1_fresh (W1 m) Rr

set_option backward.isDefEq.respectTransparency.types false in
/-- THE REGION: entered from what the first lines left, the four buffers behind the windows dealt to them; left with
    the output array at its final contents and the halves joined again. -/
def reg0 : Pipeline.RegionSeg (pcfgs (F := F)) adm (dats m) () defs₀ Variants.none LL lvl 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ LL lvl 0 fun _ _ => rfl
  pre c := iprop(StableHlo.held (c : Thread nD τ) (Pipeline.ucRefs τ sig) (Vv m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest spec0 c (V m c)
  hentry c := by
    rw [show StableHlo.held (c : Thread nD τ) (Pipeline.ucRefs τ sig) (Vv m c) = unscopedBufs c (V m c) from (Pipeline.unscopedBufs_held c _).symm,
      Pipeline.unscopedBufs_split₀ cfgs 0 winFacts₀0.arr_unscoped c (V m c)]
    iintro ⟨⟨⟨Hab, Hrest⟩, ⟨HO, Hp⟩⟩, -, -⟩
    ihave Ha := (deal m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec0 c from by
      unfold Pipeline.ΦA
      iintro ⟨Hp, -, Hr⟩
      isplitl [Hr] <;> iassumption).trans (hin m c)
  hout c :=
    (hout m c).trans (by
      rw [Pipeline.ownSems0_none]; unfold Pipeline.ΦA
      iintro ⟨Hr, Hp⟩
      isplitl [Hp]; · iexact Hp
      isplitr; · iempintro
      iexact Hr)
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c (fun b => W1 m c (Proc.devRef .tc b)), rest_kept]
    iintro ⟨Ha, HO, Hp, Hrest⟩
    ihave Hab := (join m c) $$ Ha
    imodintro
    isplitl [Hab Hrest]
    · isplitl [Hab] <;> iassumption
    isplitl [HO]
    · unfold Pipeline.Dat.owesAt Pipeline.owesWithin
      icases HO with ⟨%W, -, HO⟩; iexists W; iexact HO
    iexact Hp

/-- @main as the list of the three. -/
abbrev segs : List (Pipeline.Seg (pcfgs (F := F)) adm (dats m) () defs₀ Variants.none LL lvl) := [.host (seg0 m), .region (reg0 m), .host (seg1 m)]

/-- Core `c`'s buffers at the end. -/
abbrev Wfin (c : Dev nD) : Valuation τ sig (Elt F) := StableHlo.after hostOps1 (W1 m c)

set_option backward.isDefEq.respectTransparency.types false in
/-- From any memory with zero counters every weakly fair execution of @main terminates, and in every final state
    each unscoped buffer of every core holds its contents after the last host lines. -/
theorem run_main : θ_run defs (onTc (τ := τ) (main (F := F))) ⟨m, fun _ => 0, ρ⟩
    (fun r => ∀ c : Dev nD, ∀ b ∈ (Finset.univ.filter fun b : Ref sig .tc => ¬ b.isScoped), r.2.mem ((c : Thread nD τ).loc b) = Wfin m c (Proc.devRef .tc b)) :=
  Pipeline.θ_run_regions_kit (pcfgs (F := F)) adm (dats m) () cellOf_inj emb₁ defs₀ Variants.none LL lvl m ρ main (segs m)
    (fun c Q => by rw [main_segs adm (dats m) () Variants.none LL lvl (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rr c))
    (Tₙ := fun c => iprop(StableHlo.held (c : Thread nD τ) (Pipeline.ucRefs τ sig) (Wfin m c) ∗ (∃ r, prngReg c r)))
    (hch := ⟨fun _ => .rfl, fun _ => .rfl, fun _ => .rfl, fun c => by
      show iprop(StableHlo.held (c : Thread nD τ) (Pipeline.ucRefs τ sig) (StableHlo.after hostOps1 (W1 m c)) ∗ Rr c) ⊢ _
      iintro ⟨Hh, HO, Hp⟩
      isplitr [HO]
      · isplitl [Hh] <;> iassumption
      · iexact HO⟩)
    (hinit := by
      refine Pipeline.initEach LL lvl fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => ∀ b ∈ (Finset.univ.filter fun b : Ref sig .tc => ¬ b.isScoped), s.mem ((c : Thread nD τ).loc b) = Wfin m c (Proc.devRef .tc b))
    (hfin := fun c s' => by
      rw [show StableHlo.held (c : Thread nD τ) (Pipeline.ucRefs τ sig) (Wfin m c) = unscopedBufs c (fun b => Wfin m c (Proc.devRef .tc b)) from (Pipeline.unscopedBufs_held c _).symm]
      unfold unscopedBufs
      iintro ⟨⟨Hh, -⟩, HSI⟩
      imodintro
      iapply (pointsTo_read_all (Finset.univ.filter fun b : Ref sig .tc => ¬ b.isScoped) (fun b => (c : Thread nD τ).loc b) (fun b => Wfin m c (Proc.devRef .tc b)) s')
      isplitl [Hh] <;> iassumption)
    (hQ := fun _ h => h)

end Cert.KernelIdeal.Fr

end
-- ==== Proof.KiArgs.lean ====
/-
  No host line writes an argument array, and neither is a window's array: both hold at the end what they held at
  launch.
-/
import proofs.«175888_j22187801051866_2_alg».proof.Proof.Gen.KernelIdeal.Launch
import proofs.«175888_j22187801051866_2_alg».proof.Proof.Gen.KernelIdeal.Skeleton
import proofs.«175888_j22187801051866_2_alg».proof.Proof.Gen.KernelIdeal.Points
import proofs.«175888_j22187801051866_2_alg».proof.Proof.KiLaunch
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_keeps_arg0 : ∀ op ∈ (hostOps0 : List (HloOp τ sig (Elt F))), Proc.devRef (τ := τ) .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))

theorem hostOps0_keeps_arg1 : ∀ op ∈ (hostOps0 : List (HloOp τ sig (Elt F))), Proc.devRef (τ := τ) .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))

theorem hostOps1_keeps_arg0 : ∀ op ∈ (hostOps1 : List (HloOp τ sig (Elt F))), Proc.devRef (τ := τ) .tc main_arg0 ∉ op.writes := by
  intro op hop
  simp only [hostOps1, List.mem_cons, List.mem_nil_iff, or_false] at hop
  rcases hop with rfl | rfl | rfl | rfl | rfl
  all_goals (simp only [StableHlo.nullary_writes, StableHlo.unary_writes, StableHlo.binary_writes, StableHlo.reshape_writes, Finset.mem_singleton]; exact StableHlo.devRef_ne_of_ne (by decide))

theorem hostOps1_keeps_arg1 : ∀ op ∈ (hostOps1 : List (HloOp τ sig (Elt F))), Proc.devRef (τ := τ) .tc main_arg1 ∉ op.writes := by
  intro op hop
  simp only [hostOps1, List.mem_cons, List.mem_nil_iff, or_false] at hop
  rcases hop with rfl | rfl | rfl | rfl | rfl
  all_goals (simp only [StableHlo.nullary_writes, StableHlo.unary_writes, StableHlo.binary_writes, StableHlo.reshape_writes, Finset.mem_singleton]; exact StableHlo.devRef_ne_of_ne (by decide))

theorem Wfin_arg0 (c : Dev nD) : Wfin m c (Proc.devRef .tc main_arg0) = m ((c : Thread nD τ).loc main_arg0) := by
  show StableHlo.after hostOps1 (W1 m c) (Proc.devRef .tc main_arg0) = _
  rw [StableHlo.after_of_forall_not_mem (b := Proc.devRef .tc main_arg0) hostOps1 (W1 m c) hostOps1_keeps_arg0,
    W1_of_ne m c main_arg0 (by decide)]
  exact StableHlo.after_of_forall_not_mem (b := Proc.devRef .tc main_arg0) hostOps0 (V₀ m c) hostOps0_keeps_arg0

theorem Wfin_arg1 (c : Dev nD) : Wfin m c (Proc.devRef .tc main_arg1) = m ((c : Thread nD τ).loc main_arg1) := by
  show StableHlo.after hostOps1 (W1 m c) (Proc.devRef .tc main_arg1) = _
  rw [StableHlo.after_of_forall_not_mem (b := Proc.devRef .tc main_arg1) hostOps1 (W1 m c) hostOps1_keeps_arg1,
    W1_of_ne m c main_arg1 (by decide)]
  exact StableHlo.after_of_forall_not_mem (b := Proc.devRef .tc main_arg1) hostOps0 (V₀ m c) hostOps0_keeps_arg1

/-- THE FRAME: the program runs to the end, nothing faulting, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 (by decide)).trans (Wfin_arg0 m c), (h c main_arg1 (by decide)).trans (Wfin_arg1 m c)⟩)
    (run_main m ρ)

end Cert.KernelIdeal.Fr

end
-- ==== Proof.Spec.lean ====
/-
  The quantity both programs compute, as plain mathematics on the extended reals.

  For a batch `b`, rows `n, m` of the `4096 × 64` matrix `E b` have the Gram entry
  `sim b n m = ∑ c, E b n c * E b m c`. A pair of rows with equal labels contributes `1 - sim`, a pair with
  different labels `max (sim - 1/2) 0`; each pair is weighted by `pw b n * pw b m`. The batch's value is the sum of
  the weighted contributions over all `4096 × 4096` pairs, and the result is `4096` times the sum over the four
  batches. The kernel adds the pairs tile by tile (`2 × 4` tiles of `2048 × 1024` pairs per batch, each tile summed
  row by row); the reference adds them all at once. A finite sum on the extended reals does not depend on how it is
  grouped or ordered, so the two agree; no finiteness of the entries is used.

  The four float literals (1, 1/2, 0, 4096) are kept as the words both programs print: the same word on both
  sides is never evaluated, except the zero word, which is the additive unit.
-/
import Idealize.ShloMosaic.PureOps.Ideal
import Mathlib.Algebra.BigOperators.Fin

noncomputable section

namespace Cert.Spec

open Idealize.ShloMosaic

/-- The literals, as the extended reals their words denote. -/
def one : EReal := Ideal.ofBits .f32 0x3F800000#32
def half : EReal := Ideal.ofBits .f32 0x3F000000#32
def zero : EReal := Ideal.ofBits .f32 0x00000000#32
def n4096 : EReal := Ideal.ofBits .f32 0x45800000#32

/-- What one pair of rows contributes, from its Gram entry `s` and whether the two labels agree. -/
def perPair (s : EReal) (same : Bool) : EReal := if same then one - s else max (s - half) zero

/-- One tile: `a` rows against `b` rows. `en n c`, `em m c` are the two row blocks, `ln`, `lm` their labels,
    `pn`, `pm` their weights. Summed row by row, as the kernel does. -/
def tileSum {a b : ℕ} (en : Fin a → Fin 64 → EReal) (em : Fin b → Fin 64 → EReal) (ln : Fin a → BitVec 32) (lm : Fin b → BitVec 32)
    (pn : Fin a → EReal) (pm : Fin b → EReal) : EReal :=
  ∑ n : Fin a, ∑ m : Fin b, (pn n * pm m) * perPair (∑ c : Fin 64, en n c * em m c) (decide (ln n = lm m))

/-- One batch: all `4096 × 4096` pairs. -/
def batchSum (E : Fin 4 → Fin 4096 → Fin 64 → EReal) (L : Fin 4 → Fin 4096 → BitVec 32) (pw : Fin 4 → Fin 4096 → EReal) (b : Fin 4) : EReal :=
  tileSum (E b) (E b) (L b) (L b) (pw b) (pw b)

/-- The result: `4096` times the sum of the four batches. -/
def total (E : Fin 4 → Fin 4096 → Fin 64 → EReal) (L : Fin 4 → Fin 4096 → BitVec 32) (pw : Fin 4 → Fin 4096 → EReal) : EReal :=
  n4096 * ∑ b : Fin 4, batchSum E L pw b

/-- Row `n` of the tile with row-block index `ni` (blocks of `2048` rows), as a row of the whole matrix. -/
def rowN (ni : Fin 2) (n : Fin 2048) : Fin 4096 := ⟨ni.val * 2048 + n.val, by have := ni.isLt; have := n.isLt; omega⟩
/-- Row `m` of the tile with column-block index `mi` (blocks of `1024` rows). -/
def rowM (mi : Fin 4) (m : Fin 1024) : Fin 4096 := ⟨mi.val * 1024 + m.val, by have := mi.isLt; have := m.isLt; omega⟩

/-- The tile `(ni, mi)` of batch `b`: rows `ni * 2048 ..` against rows `mi * 1024 ..`. -/
def tileOf (E : Fin 4 → Fin 4096 → Fin 64 → EReal) (L : Fin 4 → Fin 4096 → BitVec 32) (pw : Fin 4 → Fin 4096 → EReal)
    (b : Fin 4) (ni : Fin 2) (mi : Fin 4) : EReal :=
  tileSum (fun n => E b (rowN ni n)) (fun m => E b (rowM mi m)) (fun n => L b (rowN ni n)) (fun m => L b (rowM mi m))
    (fun n => pw b (rowN ni n)) (fun m => pw b (rowM mi m))

end Cert.Spec

end
-- ==== Proof.KiBlocks.lean ====
/-
  What the kernel's windows read, and the host lines around the region, at the ideal instance.

  The grid has 4 x 2 x 4 = 32 points; point t works on batch t / 8, row block t / 4 % 2 (blocks of 2048 rows) and
  column block t % 4 (blocks of 1024 rows). Each input window's block at a point is a block of its array: an
  element of a block sits in the array, on each axis, at block index times block size plus its coordinate in the
  block. After the region five host lines flatten the four per-batch sums, add them from zero and multiply by
  4096; neither these nor the host lines before the region write the two argument arrays.
-/
import proofs.«175888_j22187801051866_2_alg».proof.Proof.KiData
import proofs.«175888_j22187801051866_2_alg».proof.Proof.Spec
import Idealize.ShloMosaic.Lib.ValueIdx
import Idealize.ShloMosaic.Lib.IdealHost
import Idealize.ShloMosaic.Lib.Pipeline.Value
import Idealize.ShloMosaic.PureOps.Ideal.Laws
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The grid's coordinates and the windows' block indices, decided over the grid -/

/-- Point `t` is batch `t / 8`, row block `t / 4 % 2`, column block `t % 4`. -/
theorem pt_coords : ∀ t : Fin cfg0.N, ((grid0.coords t 0).val = t.val / 8 ∧ (grid0.coords t 1).val = t.val / 4 % 2 ∧ (grid0.coords t 2).val = t.val % 4) :=
  (by decide +kernel : ∀ t : Fin grid0.N, _)

/-- Window 0 (the row block of the matrix): block index `(batch, row block, 0)`. -/
theorem idx_win0 : ∀ t : Fin cfg0.N, win0_0.index t (0 : Fin 3) = t.val / 8 ∧ win0_0.index t (1 : Fin 3) = t.val / 4 % 2 ∧ win0_0.index t (2 : Fin 3) = 0 :=
  (by decide +kernel : ∀ t : Fin grid0.N, _)
/-- Window 1 (the column-side row block of the same matrix): block index `(batch, column block, 0)`. -/
theorem idx_win1 : ∀ t : Fin cfg0.N, win0_1.index t (0 : Fin 3) = t.val / 8 ∧ win0_1.index t (1 : Fin 3) = t.val % 4 ∧ win0_1.index t (2 : Fin 3) = 0 :=
  (by decide +kernel : ∀ t : Fin grid0.N, _)
/-- Windows 2 and 4 (labels and weights of the row block): block index `(batch, 0, row block)`. -/
theorem idx_win2 : ∀ t : Fin cfg0.N, win0_2.index t (0 : Fin 3) = t.val / 8 ∧ win0_2.index t (1 : Fin 3) = 0 ∧ win0_2.index t (2 : Fin 3) = t.val / 4 % 2 :=
  (by decide +kernel : ∀ t : Fin grid0.N, _)
theorem idx_win4 : ∀ t : Fin cfg0.N, win0_4.index t (0 : Fin 3) = t.val / 8 ∧ win0_4.index t (1 : Fin 3) = 0 ∧ win0_4.index t (2 : Fin 3) = t.val / 4 % 2 :=
  (by decide +kernel : ∀ t : Fin grid0.N, _)
/-- Windows 3 and 5 (labels and weights of the column block): block index `(batch, 0, column block)`. -/
theorem idx_win3 : ∀ t : Fin cfg0.N, win0_3.index t (0 : Fin 3) = t.val / 8 ∧ win0_3.index t (1 : Fin 3) = 0 ∧ win0_3.index t (2 : Fin 3) = t.val % 4 :=
  (by decide +kernel : ∀ t : Fin grid0.N, _)
theorem idx_win5 : ∀ t : Fin cfg0.N, win0_5.index t (0 : Fin 3) = t.val / 8 ∧ win0_5.index t (1 : Fin 3) = 0 ∧ win0_5.index t (2 : Fin 3) = t.val % 4 :=
  (by decide +kernel : ∀ t : Fin grid0.N, _)
/-- Window 6 (the output): block index `(batch, 0, 0)`. -/
theorem idx_win6 : ∀ t : Fin cfg0.N, win0_6.index t (0 : Fin 3) = t.val / 8 ∧ win0_6.index t (1 : Fin 3) = 0 ∧ win0_6.index t (2 : Fin 3) = 0 :=
  (by decide +kernel : ∀ t : Fin grid0.N, _)

/-! ## Each input block, as its array's entries -/

/-- The row block of the matrix at point `t`: rows `rowN (t / 4 % 2) n` of batch `t / 8`. -/
theorem blk0 (c : Dev nD) (t : Fin cfg0.N) (n : Fin 2048) (k : Fin 64) :
    iblk m c 0 t (ix3 0 n k) = V m c main_v1 (ix3 ⟨t.val / 8, by have := lt_of_lt_of_eq t.isLt N_0; omega⟩ (Cert.Spec.rowN ⟨t.val / 4 % 2, by omega⟩ n) k) := by
  have hN : t.val < 32 := lt_of_lt_of_eq t.isLt N_0
  obtain ⟨e0, e1, e2⟩ := idx_win0 t
  show V m c main_v1 (((cfg0.win 0).blk t).view.emb (ix3 0 n k)) = V m c main_v1 _
  congr 1
  funext a; apply Fin.ext
  match a with
  | ⟨0, _⟩ => show win0_0.index t (0 : Fin 3) * 1 + 1 * (0 : Fin 1).val = t.val / 8; rw [e0]; simp
  | ⟨1, _⟩ => show win0_0.index t (1 : Fin 3) * 2048 + 1 * n.val = t.val / 4 % 2 * 2048 + n.val; rw [e1]; omega
  | ⟨2, _⟩ => show win0_0.index t (2 : Fin 3) * 64 + 1 * k.val = k.val; rw [e2]; omega

/-- The column-side row block of the same matrix at point `t`: rows `rowM (t % 4) j` of batch `t / 8`. -/
theorem blk1 (c : Dev nD) (t : Fin cfg0.N) (j : Fin 1024) (k : Fin 64) :
    iblk m c 1 t (ix3 0 j k) = V m c main_v1 (ix3 ⟨t.val / 8, by have := lt_of_lt_of_eq t.isLt N_0; omega⟩ (Cert.Spec.rowM ⟨t.val % 4, by omega⟩ j) k) := by
  have hN : t.val < 32 := lt_of_lt_of_eq t.isLt N_0
  obtain ⟨e0, e1, e2⟩ := idx_win1 t
  show V m c main_v1 (((cfg0.win 1).blk t).view.emb (ix3 0 j k)) = V m c main_v1 _
  congr 1
  funext a; apply Fin.ext
  match a with
  | ⟨0, _⟩ => show win0_1.index t (0 : Fin 3) * 1 + 1 * (0 : Fin 1).val = t.val / 8; rw [e0]; simp
  | ⟨1, _⟩ => show win0_1.index t (1 : Fin 3) * 1024 + 1 * j.val = t.val % 4 * 1024 + j.val; rw [e1]; omega
  | ⟨2, _⟩ => show win0_1.index t (2 : Fin 3) * 64 + 1 * k.val = k.val; rw [e2]; omega

/-- The labels of the row block at point `t`. -/
theorem blk2 (c : Dev nD) (t : Fin cfg0.N) (n : Fin 2048) :
    iblk m c 2 t (ix3 0 0 n) = V m c main_v13 (ix3 ⟨t.val / 8, by have := lt_of_lt_of_eq t.isLt N_0; omega⟩ 0 (Cert.Spec.rowN ⟨t.val / 4 % 2, by omega⟩ n)) := by
  have hN : t.val < 32 := lt_of_lt_of_eq t.isLt N_0
  obtain ⟨e0, e1, e2⟩ := idx_win2 t
  show V m c main_v13 (((cfg0.win 2).blk t).view.emb (ix3 0 0 n)) = V m c main_v13 _
  congr 1
  funext a; apply Fin.ext
  match a with
  | ⟨0, _⟩ => show win0_2.index t (0 : Fin 3) * 1 + 1 * (0 : Fin 1).val = t.val / 8; rw [e0]; simp
  | ⟨1, _⟩ => show win0_2.index t (1 : Fin 3) * 1 + 1 * (0 : Fin 1).val = 0; rw [e1]; simp
  | ⟨2, _⟩ => show win0_2.index t (2 : Fin 3) * 2048 + 1 * n.val = t.val / 4 % 2 * 2048 + n.val; rw [e2]; omega

/-- The labels of the column block at point `t`. -/
theorem blk3 (c : Dev nD) (t : Fin cfg0.N) (j : Fin 1024) :
    iblk m c 3 t (ix3 0 0 j) = V m c main_v13 (ix3 ⟨t.val / 8, by have := lt_of_lt_of_eq t.isLt N_0; omega⟩ 0 (Cert.Spec.rowM ⟨t.val % 4, by omega⟩ j)) := by
  have hN : t.val < 32 := lt_of_lt_of_eq t.isLt N_0
  obtain ⟨e0, e1, e2⟩ := idx_win3 t
  show V m c main_v13 (((cfg0.win 3).blk t).view.emb (ix3 0 0 j)) = V m c main_v13 _
  congr 1
  funext a; apply Fin.ext
  match a with
  | ⟨0, _⟩ => show win0_3.index t (0 : Fin 3) * 1 + 1 * (0 : Fin 1).val = t.val / 8; rw [e0]; simp
  | ⟨1, _⟩ => show win0_3.index t (1 : Fin 3) * 1 + 1 * (0 : Fin 1).val = 0; rw [e1]; simp
  | ⟨2, _⟩ => show win0_3.index t (2 : Fin 3) * 1024 + 1 * j.val = t.val % 4 * 1024 + j.val; rw [e2]; omega

/-- The weights of the row block at point `t`. -/
theorem blk4 (c : Dev nD) (t : Fin cfg0.N) (n : Fin 2048) :
    iblk m c 4 t (ix3 0 0 n) = V m c main_v14 (ix3 ⟨t.val / 8, by have := lt_of_lt_of_eq t.isLt N_0; omega⟩ 0 (Cert.Spec.rowN ⟨t.val / 4 % 2, by omega⟩ n)) := by
  have hN : t.val < 32 := lt_of_lt_of_eq t.isLt N_0
  obtain ⟨e0, e1, e2⟩ := idx_win4 t
  show V m c main_v14 (((cfg0.win 4).blk t).view.emb (ix3 0 0 n)) = V m c main_v14 _
  congr 1
  funext a; apply Fin.ext
  match a with
  | ⟨0, _⟩ => show win0_4.index t (0 : Fin 3) * 1 + 1 * (0 : Fin 1).val = t.val / 8; rw [e0]; simp
  | ⟨1, _⟩ => show win0_4.index t (1 : Fin 3) * 1 + 1 * (0 : Fin 1).val = 0; rw [e1]; simp
  | ⟨2, _⟩ => show win0_4.index t (2 : Fin 3) * 2048 + 1 * n.val = t.val / 4 % 2 * 2048 + n.val; rw [e2]; omega

/-- The weights of the column block at point `t`. -/
theorem blk5 (c : Dev nD) (t : Fin cfg0.N) (j : Fin 1024) :
    iblk m c 5 t (ix3 0 0 j) = V m c main_v14 (ix3 ⟨t.val / 8, by have := lt_of_lt_of_eq t.isLt N_0; omega⟩ 0 (Cert.Spec.rowM ⟨t.val % 4, by omega⟩ j)) := by
  have hN : t.val < 32 := lt_of_lt_of_eq t.isLt N_0
  obtain ⟨e0, e1, e2⟩ := idx_win5 t
  show V m c main_v14 (((cfg0.win 5).blk t).view.emb (ix3 0 0 j)) = V m c main_v14 _
  congr 1
  funext a; apply Fin.ext
  match a with
  | ⟨0, _⟩ => show win0_5.index t (0 : Fin 3) * 1 + 1 * (0 : Fin 1).val = t.val / 8; rw [e0]; simp
  | ⟨1, _⟩ => show win0_5.index t (1 : Fin 3) * 1 + 1 * (0 : Fin 1).val = 0; rw [e1]; simp
  | ⟨2, _⟩ => show win0_5.index t (2 : Fin 3) * 1024 + 1 * j.val = t.val % 4 * 1024 + j.val; rw [e2]; omega

/-! ## The host lines after the region -/

variable (W : Valuation τ sig (Elt Ideal))

/-- A sum over the indices of a rank-one array is the sum over its coordinate. -/
theorem sum_idx1_coord {M : Type*} [AddCommMonoid M] {n : ℕ} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

/-- The result: `4096` times the sum of the four per-batch sums the region leaves. The sum starts from the zero
    word, the additive unit. -/
theorem tail_v18 (i : S_.Idx) :
    StableHlo.after hostOps1 W (Proc.devRef .tc main_v18) i
      = Cert.Spec.n4096 * (∑ b : Fin 4, (W (Proc.devRef .tc main_v15) : S4x1x1.Idx → EReal) (ix3 b 0 0) : EReal) := by
  dsimp only [hostOps1]
  after_results
  show Ideal.ofBits .f32 0x45800000#32 * Host.reduceAdd (F := Ideal) (shapeCast S4 (W (Proc.devRef .tc main_v15) : S4x1x1.Idx → EReal) shapeCasts_S4x1x1_S4) (constant (F := Ideal) S_ .f32 0x00000000#32) reducesTo_S4_S_d0 h_S_ i = _
  rw [hostReduceAdd_apply, Ideal.hostReduceAdd_total _ (fun b => b.elim0)]
  show Ideal.ofBits .f32 0x45800000#32 * (Ideal.ofBits .f32 0x00000000#32 + _) = _
  rw [Ideal.ofBits_zero_f32, zero_add, sum_idx1_coord]
  unfold Cert.Spec.n4096
  refine congrArg (Ideal.ofBits .f32 0x45800000#32 * ·) (Finset.sum_congr rfl fun b _ => ?_)
  refine shapeCast_apply _ _ _ _ ?_
  show ((⟨3, ![4, 1, 1]⟩ : Shape).rowMajor (ix3 b 0 0)).val = ((⟨1, ![4]⟩ : Shape).rowMajor (ix1 b)).val
  rw [Shape.rowMajor_val_three, Shape.rowMajor_val_one]
  show (b.val * 1 + 0) * 1 + 0 = b.val
  omega

/-- The host lines after the region write neither argument array. -/
theorem tail_not_written (b : Ref sig .tc) (hb : b ≠ main_v16 ∧ b ≠ main_cst_0 ∧ b ≠ main_v17 ∧ b ≠ main_cst_1 ∧ b ≠ main_v18) :
    ∀ op ∈ (hostOps1 (F := Ideal)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

theorem tail_keeps_args :
    StableHlo.after hostOps1 W (Proc.devRef .tc main_arg0) = W (Proc.devRef .tc main_arg0)
      ∧ StableHlo.after hostOps1 W (Proc.devRef .tc main_arg1) = W (Proc.devRef .tc main_arg1) :=
  ⟨StableHlo.after_of_forall_not_mem (b := Proc.devRef .tc main_arg0) hostOps1 W (tail_not_written main_arg0 (by decide)),
   StableHlo.after_of_forall_not_mem (b := Proc.devRef .tc main_arg1) hostOps1 W (tail_not_written main_arg1 (by decide))⟩

/-! ## The host lines before the region -/

/-- The host lines before the region write neither argument array. -/
theorem head_not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_c ∧ b ≠ main_v9 ∧ b ≠ main_v10 ∧ b ≠ main_cst ∧ b ≠ main_v11 ∧ b ≠ main_v12 ∧ b ≠ main_v13 ∧ b ≠ main_v14) :
    ∀ op ∈ (hostOps0 (F := Ideal)), Proc.devRef .tc b ∉ op.writes := by
  obtain ⟨h0, h1, h2, h3, h4, h5, h6, h7, h8, h9, h10, h11, h12, h13, h14, h15, h16⟩ := hb
  intro op hop
  simp only [List.mem_cons, List.mem_nil_iff, or_false] at hop
  rcases hop with rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- So the region finds the two argument arrays as they were at launch. -/
theorem head_keeps_args (c : Dev nD) :
    Vv m c (Proc.devRef .tc main_arg0) = V₀ m c (Proc.devRef .tc main_arg0)
      ∧ Vv m c (Proc.devRef .tc main_arg1) = V₀ m c (Proc.devRef .tc main_arg1) :=
  ⟨StableHlo.after_of_forall_not_mem (b := Proc.devRef .tc main_arg0) hostOps0 (V₀ m c) (head_not_written main_arg0 (by decide)),
   StableHlo.after_of_forall_not_mem (b := Proc.devRef .tc main_arg1) hostOps0 (V₀ m c) (head_not_written main_arg1 (by decide))⟩

end Cert.KernelIdeal.Fr

end
-- ==== Proof.Regroup.lean ====
/-
  Regrouping a sum over all pairs of rows into tiles, and the running accumulator over the eight tiles of a batch.

  A sum over `Fin (k * s)` is the sum over `k` blocks of the sums over the `s` members of each block. Applied to
  both indices of the double sum over pairs of rows, and exchanging the two middle sums, the batch's value is the
  sum of its `2 × 4` tiles. Nothing about the summand is used.
-/
import proofs.«175888_j22187801051866_2_alg».proof.Proof.Spec
import Mathlib.Algebra.BigOperators.Fin
import Mathlib.Logic.Equiv.Fin.Basic
import Mathlib.Tactic.Abel
import Mathlib.Tactic.Ring

noncomputable section

namespace Cert.Spec

open Idealize.ShloMosaic

/-- A sum over `Fin N` with `N = k * s`, block by block. -/
theorem sum_fin_blocks {M : Type*} [AddCommMonoid M] (k s N : ℕ) (h : k * s = N) (f : Fin N → M)
    (r : Fin k → Fin s → Fin N) (hr : ∀ bi j, (r bi j).val = bi.val * s + j.val) :
    ∑ i : Fin N, f i = ∑ bi : Fin k, ∑ j : Fin s, f (r bi j) := by
  subst h
  rw [← (finProdFinEquiv (m := k) (n := s)).sum_comp f, Fintype.sum_prod_type]
  refine Finset.sum_congr rfl fun bi _ => Finset.sum_congr rfl fun j _ => ?_
  congr 1
  apply Fin.ext
  rw [hr]
  simp only [finProdFinEquiv_apply_val]
  ring

/-- The double sum over all pairs of rows, tile by tile. -/
theorem sum_pairs_tiles (g : Fin 4096 → Fin 4096 → EReal) :
    ∑ n : Fin 4096, ∑ m : Fin 4096, g n m
      = ∑ ni : Fin 2, ∑ mi : Fin 4, ∑ n : Fin 2048, ∑ m : Fin 1024, g (rowN ni n) (rowM mi m) := by
  rw [sum_fin_blocks (M := EReal) 2 2048 4096 (by norm_num) (fun n => ∑ m : Fin 4096, g n m) rowN (fun _ _ => rfl)]
  refine Finset.sum_congr rfl fun ni _ => ?_
  refine Eq.trans ?_ (Finset.sum_comm (s := Finset.univ) (t := Finset.univ)
    (f := fun (n : Fin 2048) (mi : Fin 4) => ∑ m : Fin 1024, g (rowN ni n) (rowM mi m)))
  refine Finset.sum_congr rfl fun n _ => ?_
  exact sum_fin_blocks (M := EReal) 4 1024 4096 (by norm_num) (fun m => g (rowN ni n) m) rowM (fun _ _ => rfl)

/-- One batch is the sum of its `2 × 4` tiles. -/
theorem batchSum_eq_tiles (E : Fin 4 → Fin 4096 → Fin 64 → EReal) (L : Fin 4 → Fin 4096 → BitVec 32)
    (pw : Fin 4 → Fin 4096 → EReal) (b : Fin 4) :
    batchSum E L pw b = ∑ ni : Fin 2, ∑ mi : Fin 4, tileOf E L pw b ni mi := by
  unfold batchSum tileOf tileSum
  exact sum_pairs_tiles
    (fun n m => (pw b n * pw b m) * perPair (∑ c : Fin 64, E b n c * E b m c) (decide (L b n = L b m)))

/-- The accumulator after the first `k` tiles of a batch, starting from `0`; tile number `k` is
    `(ni, mi) = (k / 4 % 2, k % 4)`, so the order is `(0,0), (0,1), (0,2), (0,3), (1,0), …, (1,3)`. -/
def accUpTo (f : Fin 2 → Fin 4 → EReal) : ℕ → EReal
  | 0 => 0
  | k + 1 => accUpTo f k + f ⟨k / 4 % 2, by omega⟩ ⟨k % 4, by omega⟩

/-- After all eight tiles the accumulator is the sum over the tiles. -/
theorem accUpTo_eight (f : Fin 2 → Fin 4 → EReal) : accUpTo f 8 = ∑ ni : Fin 2, ∑ mi : Fin 4, f ni mi := by
  rw [Fin.sum_univ_two, Fin.sum_univ_four, Fin.sum_univ_four]
  show 0 + f 0 0 + f 0 1 + f 0 2 + f 0 3 + f 1 0 + f 1 1 + f 1 2 + f 1 3 = _
  rw [zero_add]
  simp only [add_assoc]

end Cert.Spec

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.TileGram.lean ====
/-
  The Gram entries of one tile, read at a pair of rows.

  The kernel's matrix product contracts the last axis of both row blocks into a zero accumulator: its entry `(n, m)` is
  `∑ c, x n c * y m c`, row `n` of the first block against row `m` of the second. The two blocks arrive with a leading
  unit axis, which a shape cast drops. The two differences the kernel forms from the product, `1 - sim` and
  `sim - 1/2`, are read at the same pair of rows.
-/
import proofs.«175888_j22187801051866_2_alg».proof.Proof.Gen.KernelIdeal.Skeleton
import proofs.«175888_j22187801051866_2_alg».proof.Proof.Spec
import proofs.«175888_j22187801051866_2_alg».proof.Proof.LibContractRows
import proofs.«175888_j22187801051866_2_alg».proof.Proof.LibKeepdims
import proofs.«175888_j22187801051866_2_alg».proof.Proof.LibBlockLayout
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx

/-- The kernel's dimension numbers are "rows against rows". -/
theorem dot_eq_transposedRhs :
    dot_S2048x64_S1024x64_S2048x1024_1_1_0_0_n_n = DotDims.transposedRhs 2048 64 1024 := rfl

/-- The product of a `[2048, 64]` block with a `[1024, 64]` block into the zero accumulator, at `(n, m)`. -/
theorem gram_apply (l : FVec Ideal S2048x64 .bf16) (r : FVec Ideal S1024x64 .bf16) (n : Fin 2048) (m : Fin 1024) :
    matmul (F := Ideal) dot_S2048x64_S1024x64_S2048x1024_1_1_0_0_n_n none l r
        (constant (F := Ideal) S2048x1024 .f32 0x00000000#32) (ix2 n m)
      = ∑ c : Fin 64, l (ix2 n c) * r (ix2 m c) := by
  rw [dot_eq_transposedRhs]
  exact ContractRows.matmul_zero_apply (M := 2048) (K := 64) (N := 1024) none l r n m

/-- The tile's Gram entry at `(n, m)`: row `n` of the first block against row `m` of the second. -/
theorem pay3_apply (v5 : Vec Ideal S1x2048x64 .bf16) (v7 : Vec Ideal S1x1024x64 .bf16) (n : Fin 2048) (m : Fin 1024) :
    k0_pay3 (F := Ideal) v5 v7 (ix2 n m)
      = ∑ c : Fin 64, (v5 (ix3 (0 : Fin 1) n c) : EReal) * (v7 (ix3 (0 : Fin 1) m c) : EReal) := by
  unfold k0_pay3
  refine (gram_apply _ _ n m).trans ?_
  refine Finset.sum_congr rfl fun c _ => ?_
  exact congrArg₂ (· * ·) (shapeCast_1ab_ab_apply v5 _ n c) (shapeCast_1ab_ab_apply v7 _ m c)

/-- `1 - sim` at `(n, m)`. -/
theorem pay6_apply (v5 : Vec Ideal S1x2048x64 .bf16) (v7 : Vec Ideal S1x1024x64 .bf16) (n : Fin 2048) (m : Fin 1024) :
    k0_pay6 (F := Ideal) v5 v7 (ix2 n m)
      = Cert.Spec.one - ∑ c : Fin 64, (v5 (ix3 (0 : Fin 1) n c) : EReal) * (v7 (ix3 (0 : Fin 1) m c) : EReal) := by
  unfold k0_pay6
  exact congrArg (Cert.Spec.one - ·) (pay3_apply v5 v7 n m)

/-- `sim - 1/2` at `(n, m)`. -/
theorem pay7_apply (v5 : Vec Ideal S1x2048x64 .bf16) (v7 : Vec Ideal S1x1024x64 .bf16) (n : Fin 2048) (m : Fin 1024) :
    k0_pay7 (F := Ideal) v5 v7 (ix2 n m)
      = (∑ c : Fin 64, (v5 (ix3 (0 : Fin 1) n c) : EReal) * (v7 (ix3 (0 : Fin 1) m c) : EReal)) - Cert.Spec.half := by
  unfold k0_pay7
  exact congrArg (· - Cert.Spec.half) (pay3_apply v5 v7 n m)

end Cert.KernelIdeal.TileValue

end
-- ==== Proof.TileMask.lean ====
/-
  The label mask and the pair weights of one tile, read at a pair of rows.

  Labels and weights arrive as `[1, 1, a]` blocks. The first block's are laid as a column `[a, 1]` and repeated along
  the second axis, the second block's as a row `[1, b]` and repeated along the first; so at `(n, m)` the two repeated
  arrays read entry `n` of the first block and entry `m` of the second. The mask compares the two labels for
  equality; the weight is the product of the two weights.
-/
import proofs.«175888_j22187801051866_2_alg».proof.Proof.Gen.KernelIdeal.Skeleton
import proofs.«175888_j22187801051866_2_alg».proof.Proof.Spec
import proofs.«175888_j22187801051866_2_alg».proof.Proof.LibContractRows
import proofs.«175888_j22187801051866_2_alg».proof.Proof.LibKeepdims
import proofs.«175888_j22187801051866_2_alg».proof.Proof.LibBlockLayout
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A `[1, 1, a]` block laid as a column and repeated to `[a, b]` reads, at `(n, m)`, the block's entry `n`. -/
theorem column_apply {a b : ℕ} (x : (⟨3, ![1, 1, a]⟩ : Shape).Idx → α)
    (h1 : (⟨3, ![1, 1, a]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (n : Fin a) (m : Fin b) :
    broadcastTo ⟨2, ![a, b]⟩ (shapeCast ⟨2, ![a, 1]⟩ (shapeCast ⟨1, ![a]⟩ x h1) h2) h3 (ix2 n m)
      = x (ix3 (0 : Fin 1) (0 : Fin 1) n) :=
  (Cert.Keepdims.broadcastTo_a1_ab_apply _ h3 n m).trans
    ((Cert.Keepdims.shapeCast_a_a1_apply _ h2 n (0 : Fin 1)).trans (shapeCast_11a_a_apply x h1 n))

/-- A `[1, 1, b]` block laid as a row and repeated to `[a, b]` reads, at `(n, m)`, the block's entry `m`. -/
theorem row_apply {a b : ℕ} (x : (⟨3, ![1, 1, b]⟩ : Shape).Idx → α)
    (h1 : (⟨3, ![1, 1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (n : Fin a) (m : Fin b) :
    broadcastTo ⟨2, ![a, b]⟩ (shapeCast ⟨2, ![1, b]⟩ (shapeCast ⟨1, ![b]⟩ x h1) h2) h3 (ix2 n m)
      = x (ix3 (0 : Fin 1) (0 : Fin 1) m) :=
  (broadcastTo_1b_ab_apply _ h3 n m).trans
    ((shapeCast_a_1a_apply _ h2 (0 : Fin 1) m).trans (shapeCast_11a_a_apply x h1 m))

/-- The mask at `(n, m)`: the equality test of label `n` of the first block and label `m` of the second. -/
theorem pay4_apply (v10 : Vec Ideal S1x1x2048 .i32) (v13 : Vec Ideal S1x1x1024 .i32) (n : Fin 2048) (m : Fin 1024) :
    k0_pay4 (F := Ideal) v10 v13 (ix2 n m)
      = IntOp.cmpi .eq (v10 (ix3 (0 : Fin 1) (0 : Fin 1) n) : BitVec 32) (v13 (ix3 (0 : Fin 1) (0 : Fin 1) m) : BitVec 32) := by
  unfold k0_pay4
  exact congrArg₂ (IntOp.cmpi .eq) (column_apply v10 _ _ _ n m) (row_apply v13 _ _ _ n m)

/-- The weight at `(n, m)`: weight `n` of the first block times weight `m` of the second. -/
theorem pay5_apply (v19 : Vec Ideal S1x1x2048 .f32) (v22 : Vec Ideal S1x1x1024 .f32) (n : Fin 2048) (m : Fin 1024) :
    k0_pay5 (F := Ideal) v19 v22 (ix2 n m)
      = (v19 (ix3 (0 : Fin 1) (0 : Fin 1) n) : EReal) * (v22 (ix3 (0 : Fin 1) (0 : Fin 1) m) : EReal) := by
  unfold k0_pay5
  exact congrArg₂ (· * ·) (column_apply v19 _ _ _ n m) (row_apply v22 _ _ _ n m)

/-- A select on the equality test of two words is the `if` on their equality. -/
theorem select_cmpi_eq (x y : BitVec 32) (p q : α) :
    Scalar.select (IntOp.cmpi .eq x y) p q = if decide (x = y) = true then p else q := by
  unfold Scalar.select IntOp.cmpi
  by_cases h : x = y
  · subst h; simp
  · have hb : (x == y) = false := beq_eq_false_iff_ne.mpr h
    simp [h, hb]

end Cert.KernelIdeal.TileValue

end
-- ==== Proof.TileValue.lean ====
/-
  The value one tile adds to the accumulator.

  At a pair of rows `(n, m)` the kernel forms `(pn n * pm m) * (if ln n = lm m then 1 - sim else max (sim - 1/2) 0)`
  with `sim` the Gram entry. It sums the `[2048, 1024]` array of these over its second axis, lays the `2048` row sums
  as a column, sums the column, and adds the one number left to the accumulator's previous value. Both sums start
  from the zero word, the additive unit, so the tile's contribution is the plain double sum over the pairs, row by row.
  The accumulator's initial value is the zero word.
-/
import proofs.«175888_j22187801051866_2_alg».proof.Proof.Gen.KernelIdeal.Skeleton
import proofs.«175888_j22187801051866_2_alg».proof.Proof.Spec
import proofs.«175888_j22187801051866_2_alg».proof.Proof.LibContractRows
import proofs.«175888_j22187801051866_2_alg».proof.Proof.LibKeepdims
import proofs.«175888_j22187801051866_2_alg».proof.Proof.LibBlockLayout
import proofs.«175888_j22187801051866_2_alg».proof.Proof.TileGram
import proofs.«175888_j22187801051866_2_alg».proof.Proof.TileMask
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx

/-- Reducing `[a, b]` over its leading axis: the source index over `q` with `k` inserted is `(k, q)`. -/
theorem lift_leading2 {a b : ℕ} (h : (⟨2, ![a, b]⟩ : Shape).Reduces [(0 : Fin 2)] ⟨1, ![b]⟩)
    (q : Fin b) (k : Fin a) : h.lift (ix1 q) k = ix2 k q := by
  funext ax
  apply Fin.ext
  match ax with
  | ⟨0, _⟩ => rfl
  | ⟨1, _⟩ => rfl

/-- At the exact values, a float sum of `[a, b]` over its leading axis reads, at `q`, the sum over `k` of the source at
    `(k, q)`. -/
theorem multiReduction_add_leading2 {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ k : Fin a, src (ix2 k q) := by
  refine (Ideal.multiReduction_add_single src acc h hφ hacc (ix1 q)).trans ?_
  exact Finset.sum_congr rfl fun k _ => congrArg src (lift_leading2 h q k)

/-- Row sums, laid as a column, then the column's sum: the double sum over the array, row by row. -/
theorem total_by_rows {a b : ℕ} (src : FVec Ideal ⟨2, ![a, b]⟩ .f32) (acc1 acc2 : BitVec (FTy.bits .f32))
    (h1 : (⟨2, ![a, b]⟩ : Shape).Reduces [(1 : Fin 2)] ⟨1, ![a]⟩) (hφ1 : FKind.Formats .f32)
    (hacc1 : acc1 = FKind.add.neutral .f32 hφ1)
    (hc : (⟨1, ![a]⟩ : Shape).ShapeCasts ⟨2, ![a, 1]⟩)
    (h2 : (⟨2, ![a, 1]⟩ : Shape).Reduces [(0 : Fin 2)] ⟨1, ![1]⟩) (hφ2 : FKind.Formats .f32)
    (hacc2 : acc2 = FKind.add.neutral .f32 hφ2) (i : Fin 1) :
    multiReduction (F := Ideal) .add [(0 : Fin 2)] ⟨1, ![1]⟩
        (shapeCast ⟨2, ![a, 1]⟩ (multiReduction (F := Ideal) .add [(1 : Fin 2)] ⟨1, ![a]⟩ src acc1 h1 hφ1 hacc1) hc)
        acc2 h2 hφ2 hacc2 (ix1 i)
      = ∑ n : Fin a, ∑ m : Fin b, src (ix2 n m) := by
  refine (multiReduction_add_leading2 _ acc2 h2 hφ2 hacc2 i).trans ?_
  refine Finset.sum_congr rfl fun n _ => ?_
  refine (Cert.Keepdims.shapeCast_a_a1_apply _ hc n i).trans ?_
  exact Cert.BlockLayout.multiReduction_add_trailing2 src acc1 h1 hφ1 hacc1 n

/-- The accumulator's initial value is `0`. -/
theorem pay2_eq (j : S1x1x1.Idx) : k0_pay2 (F := Ideal) j = (0 : EReal) := by
  unfold k0_pay2
  rw [shapeCast_self]
  exact Ideal.ofBits_zero_f32

/-- The weighted contribution of the pair `(n, m)`, as the kernel forms it. -/
theorem pair_apply (v5 : Vec Ideal S1x2048x64 .bf16) (v7 : Vec Ideal S1x1024x64 .bf16)
    (v10 : Vec Ideal S1x1x2048 .i32) (v13 : Vec Ideal S1x1x1024 .i32)
    (v19 : Vec Ideal S1x1x2048 .f32) (v22 : Vec Ideal S1x1x1024 .f32) (n : Fin 2048) (m : Fin 1024) :
    (k0_pay5 (F := Ideal) v19 v22 (ix2 n m) : EReal)
        * Scalar.select (k0_pay4 (F := Ideal) v10 v13 (ix2 n m)) (k0_pay6 (F := Ideal) v5 v7 (ix2 n m) : EReal)
            (max (k0_pay7 (F := Ideal) v5 v7 (ix2 n m) : EReal) Cert.Spec.zero)
      = ((v19 (ix3 (0 : Fin 1) (0 : Fin 1) n) : EReal) * (v22 (ix3 (0 : Fin 1) (0 : Fin 1) m) : EReal))
        * Cert.Spec.perPair (∑ c : Fin 64, (v5 (ix3 (0 : Fin 1) n c) : EReal) * (v7 (ix3 (0 : Fin 1) m c) : EReal))
            (decide ((v10 (ix3 (0 : Fin 1) (0 : Fin 1) n) : BitVec 32) = (v13 (ix3 (0 : Fin 1) (0 : Fin 1) m) : BitVec 32))) := by
  rw [pay5_apply, pay4_apply, pay6_apply, pay7_apply, select_cmpi_eq]
  rfl

/-- One tile adds its sum over the pairs to the accumulator. -/
theorem pay1_eq (v5 : Vec Ideal S1x2048x64 .bf16) (v7 : Vec Ideal S1x1024x64 .bf16)
    (v10 : Vec Ideal S1x1x2048 .i32) (v13 : Vec Ideal S1x1x1024 .i32)
    (v19 : Vec Ideal S1x1x2048 .f32) (v22 : Vec Ideal S1x1x1024 .f32) (v41 : Vec Ideal S1x1x1 .f32) (j : S1x1x1.Idx) :
    k0_pay1 (F := Ideal) (k0_pay4 v10 v13) (k0_pay5 v19 v22) (k0_pay6 v5 v7) (k0_pay7 v5 v7) v41 j
      = (v41 j : EReal) + Cert.Spec.tileSum (fun n c => (v5 (ix3 (0 : Fin 1) n c) : EReal)) (fun m c => (v7 (ix3 (0 : Fin 1) m c) : EReal))
          (fun n => (v10 (ix3 (0 : Fin 1) (0 : Fin 1) n) : BitVec 32)) (fun m => (v13 (ix3 (0 : Fin 1) (0 : Fin 1) m) : BitVec 32))
          (fun n => (v19 (ix3 (0 : Fin 1) (0 : Fin 1) n) : EReal)) (fun m => (v22 (ix3 (0 : Fin 1) (0 : Fin 1) m) : EReal)) := by
  obtain ⟨u, v, w, rfl⟩ : ∃ u v w : Fin 1, j = ix3 u v w := ⟨j 0, j 1, j 2, eq_ix3 j⟩
  unfold k0_pay1
  rw [shapeCast_self]
  refine congrArg ((v41 (ix3 u v w) : EReal) + ·) ?_
  refine (shapeCast_ab_1ab_apply _ _ u v w).trans ?_
  refine (Cert.Keepdims.shapeCast_a_a1_apply _ _ v w).trans ?_
  refine (total_by_rows _ _ _ _ _ _ _ _ _ _ v).trans ?_
  unfold Cert.Spec.tileSum
  exact Finset.sum_congr rfl fun n _ => Finset.sum_congr rfl fun m _ => pair_apply v5 v7 v10 v13 v19 v22 n m

end Cert.KernelIdeal.TileValue

end
-- ==== Proof.KiBatch.lean ====
/-
  The value of one batch.

  At every grid point the body adds the point's tile to the running sum, which it finds at zero at the first point of
  a batch and otherwise as the point before left it. Point `t` is batch `t / 8`, row block `t / 4 % 2`, column block
  `t % 4`, and its six blocks are the corresponding rows of the batch's matrix, labels and weights; so the tile it adds
  is tile `(t / 4 % 2, t % 4)` of batch `t / 8`. After the eighth point of batch `b` the running sum is the sum of the
  batch's eight tiles, which is the sum over all its pairs of rows.
-/
import proofs.«175888_j22187801051866_2_alg».proof.Proof.KiData
import proofs.«175888_j22187801051866_2_alg».proof.Proof.Spec
import proofs.«175888_j22187801051866_2_alg».proof.Proof.Regroup
import proofs.«175888_j22187801051866_2_alg».proof.Proof.TileValue
import Idealize.ShloMosaic.Lib.Pipeline.Value
import Idealize.ShloMosaic.Lib.ValueIdx
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- What the body leaves in the accumulator at point `t` when it finds `xs` there. -/
def tileAt (c : Dev nD) (t : Fin cfg0.N) (xs : Vec Ideal S1x1x1 .f32) : Vec Ideal S1x1x1 .f32 :=
  k0_pay1 (k0_pay4 (iblk m c 2 t) (iblk m c 3 t)) (k0_pay5 (iblk m c 4 t) (iblk m c 5 t)) (k0_pay6 (iblk m c 0 t) (iblk m c 1 t))
    (k0_pay7 (iblk m c 0 t) (iblk m c 1 t)) xs

/-- A tile's value depends on its six arguments only. -/
theorem tileSum_congr {a b : ℕ} {en en' : Fin a → Fin 64 → EReal} {em em' : Fin b → Fin 64 → EReal}
    {ln ln' : Fin a → BitVec 32} {lm lm' : Fin b → BitVec 32} {pn pn' : Fin a → EReal} {pm pm' : Fin b → EReal}
    (e0 : en = en') (e1 : em = em') (e2 : ln = ln') (e3 : lm = lm') (e4 : pn = pn') (e5 : pm = pm') :
    Cert.Spec.tileSum en em ln lm pn pm = Cert.Spec.tileSum en' em' ln' lm' pn' pm' := by
  subst e0 e1 e2 e3 e4 e5; rfl

/-- The running sum at equal positions. -/
theorem accAt_congr (c : Dev nD) {n n' : ℕ} (h : n = n') (hn : n < cfg0.N) (hn' : n' < cfg0.N) :
    accAt m c n hn = accAt m c n' hn' := by
  subst h; rfl

/-- Point `t` adds tile `(t / 4 % 2, t % 4)` of batch `t / 8` to what it finds. -/
theorem tileAt_apply (c : Dev nD) (E : Fin 4 → Fin 4096 → Fin 64 → EReal) (L : Fin 4 → Fin 4096 → BitVec 32)
    (pw : Fin 4 → Fin 4096 → EReal)
    (h0 : ∀ (t : Fin cfg0.N) (h : t.val < 32) n k, iblk m c 0 t (ix3 0 n k) = E ⟨t.val / 8, by omega⟩ (Cert.Spec.rowN ⟨t.val / 4 % 2, by omega⟩ n) k)
    (h1 : ∀ (t : Fin cfg0.N) (h : t.val < 32) j k, iblk m c 1 t (ix3 0 j k) = E ⟨t.val / 8, by omega⟩ (Cert.Spec.rowM ⟨t.val % 4, by omega⟩ j) k)
    (h2 : ∀ (t : Fin cfg0.N) (h : t.val < 32) n, iblk m c 2 t (ix3 0 0 n) = L ⟨t.val / 8, by omega⟩ (Cert.Spec.rowN ⟨t.val / 4 % 2, by omega⟩ n))
    (h3 : ∀ (t : Fin cfg0.N) (h : t.val < 32) j, iblk m c 3 t (ix3 0 0 j) = L ⟨t.val / 8, by omega⟩ (Cert.Spec.rowM ⟨t.val % 4, by omega⟩ j))
    (h4 : ∀ (t : Fin cfg0.N) (h : t.val < 32) n, iblk m c 4 t (ix3 0 0 n) = pw ⟨t.val / 8, by omega⟩ (Cert.Spec.rowN ⟨t.val / 4 % 2, by omega⟩ n))
    (h5 : ∀ (t : Fin cfg0.N) (h : t.val < 32) j, iblk m c 5 t (ix3 0 0 j) = pw ⟨t.val / 8, by omega⟩ (Cert.Spec.rowM ⟨t.val % 4, by omega⟩ j))
    (t : Fin cfg0.N) (ht : t.val < 32) (xs : Vec Ideal S1x1x1 .f32) (j : S1x1x1.Idx) :
    tileAt m c t xs j
      = (xs j : EReal) + Cert.Spec.tileOf E L pw ⟨t.val / 8, by omega⟩ ⟨t.val / 4 % 2, by omega⟩ ⟨t.val % 4, by omega⟩ := by
  unfold tileAt
  refine (TileValue.pay1_eq _ _ _ _ _ _ xs j).trans ?_
  refine congrArg ((xs j : EReal) + ·) ?_
  unfold Cert.Spec.tileOf
  exact tileSum_congr (funext fun n => funext fun k => h0 t ht n k) (funext fun n => funext fun k => h1 t ht n k)
    (funext fun n => h2 t ht n) (funext fun n => h3 t ht n) (funext fun n => h4 t ht n) (funext fun n => h5 t ht n)

/-- Point `8 b + k` (`k < 8`) is batch `b`, row block `k / 4 % 2`, column block `k % 4`. -/
theorem tileOf_point (E : Fin 4 → Fin 4096 → Fin 64 → EReal) (L : Fin 4 → Fin 4096 → BitVec 32) (pw : Fin 4 → Fin 4096 → EReal)
    (b : Fin 4) (k : ℕ) (hk : k < 8) (n : ℕ) (hn : n = 8 * b.val + k) (p1 : n / 8 < 4) (p2 : n / 4 % 2 < 2) (p3 : n % 4 < 4)
    (q2 : k / 4 % 2 < 2) (q3 : k % 4 < 4) :
    Cert.Spec.tileOf E L pw ⟨n / 8, p1⟩ ⟨n / 4 % 2, p2⟩ ⟨n % 4, p3⟩ = Cert.Spec.tileOf E L pw b ⟨k / 4 % 2, q2⟩ ⟨k % 4, q3⟩ := by
  have hb := b.isLt
  have e1 : (⟨n / 8, p1⟩ : Fin 4) = b := Fin.ext (by show n / 8 = b.val; omega)
  have e2 : (⟨n / 4 % 2, p2⟩ : Fin 2) = ⟨k / 4 % 2, q2⟩ := Fin.ext (by show n / 4 % 2 = k / 4 % 2; omega)
  have e3 : (⟨n % 4, p3⟩ : Fin 4) = ⟨k % 4, q3⟩ := Fin.ext (by show n % 4 = k % 4; omega)
  rw [e1, e2, e3]

/-- After point `8 b + k` the running sum is the sum of the first `k + 1` tiles of batch `b`. -/
theorem acc_prefix (c : Dev nD) (E : Fin 4 → Fin 4096 → Fin 64 → EReal) (L : Fin 4 → Fin 4096 → BitVec 32)
    (pw : Fin 4 → Fin 4096 → EReal)
    (hfirst : ∀ t : Fin cfg0.N, t.val % 8 = 0 → accAt m c t.val t.isLt = tileAt m c t (k0_pay2 (F := Ideal)))
    (hnext : ∀ t : Fin cfg0.N, ¬t.val % 8 = 0 → accAt m c t.val t.isLt = tileAt m c t (accAt m c (t.val - 1) (Nat.lt_of_le_of_lt (Nat.sub_le _ _) t.isLt)))
    (h0 : ∀ (t : Fin cfg0.N) (h : t.val < 32) n k, iblk m c 0 t (ix3 0 n k) = E ⟨t.val / 8, by omega⟩ (Cert.Spec.rowN ⟨t.val / 4 % 2, by omega⟩ n) k)
    (h1 : ∀ (t : Fin cfg0.N) (h : t.val < 32) j k, iblk m c 1 t (ix3 0 j k) = E ⟨t.val / 8, by omega⟩ (Cert.Spec.rowM ⟨t.val % 4, by omega⟩ j) k)
    (h2 : ∀ (t : Fin cfg0.N) (h : t.val < 32) n, iblk m c 2 t (ix3 0 0 n) = L ⟨t.val / 8, by omega⟩ (Cert.Spec.rowN ⟨t.val / 4 % 2, by omega⟩ n))
    (h3 : ∀ (t : Fin cfg0.N) (h : t.val < 32) j, iblk m c 3 t (ix3 0 0 j) = L ⟨t.val / 8, by omega⟩ (Cert.Spec.rowM ⟨t.val % 4, by omega⟩ j))
    (h4 : ∀ (t : Fin cfg0.N) (h : t.val < 32) n, iblk m c 4 t (ix3 0 0 n) = pw ⟨t.val / 8, by omega⟩ (Cert.Spec.rowN ⟨t.val / 4 % 2, by omega⟩ n))
    (h5 : ∀ (t : Fin cfg0.N) (h : t.val < 32) j, iblk m c 5 t (ix3 0 0 j) = pw ⟨t.val / 8, by omega⟩ (Cert.Spec.rowM ⟨t.val % 4, by omega⟩ j))
    (b : Fin 4) :
    ∀ (k : ℕ) (hk : k < 8), accAt m c (8 * b.val + k) (by have := N32; have := b.isLt; omega) (ix3 0 0 0)
      = Cert.Spec.accUpTo (fun ni mi => Cert.Spec.tileOf E L pw b ni mi) (k + 1) := by
  intro k
  induction k with
  | zero =>
    intro hk
    have hb := b.isLt
    have hN : cfg0.N = 32 := N32
    have ht : 8 * b.val < cfg0.N := by omega
    have e := hfirst ⟨8 * b.val, ht⟩ (by show 8 * b.val % 8 = 0; omega)
    refine (congrFun (accAt_congr m c (Nat.add_zero _) _ ht) _).trans ?_
    refine (congrFun e _).trans ?_
    refine (tileAt_apply m c E L pw h0 h1 h2 h3 h4 h5 ⟨8 * b.val, ht⟩ (by show 8 * b.val < 32; omega) _ _).trans ?_
    refine (congrArg₂ (· + ·) (TileValue.pay2_eq _)
      (tileOf_point E L pw b 0 (by omega) (8 * b.val) (by omega) _ _ _ (by omega) (by omega))).trans ?_
    rfl
  | succ k ih =>
    intro hk
    have hb := b.isLt
    have hN : cfg0.N = 32 := N32
    have ht : 8 * b.val + (k + 1) < cfg0.N := by omega
    have e := hnext ⟨8 * b.val + (k + 1), ht⟩ (by show ¬(8 * b.val + (k + 1)) % 8 = 0; omega)
    refine (congrFun e _).trans ?_
    refine (tileAt_apply m c E L pw h0 h1 h2 h3 h4 h5 ⟨8 * b.val + (k + 1), ht⟩ (by show 8 * b.val + (k + 1) < 32; omega) _ _).trans ?_
    have step : accAt m c ((⟨8 * b.val + (k + 1), ht⟩ : Fin cfg0.N).val - 1) (Nat.lt_of_le_of_lt (Nat.sub_le _ _) ht) (ix3 0 0 0)
        = Cert.Spec.accUpTo (fun ni mi => Cert.Spec.tileOf E L pw b ni mi) (k + 1) :=
      (congrFun (accAt_congr m c (by show 8 * b.val + (k + 1) - 1 = 8 * b.val + k; omega) _ (by omega)) _).trans (ih (by omega))
    refine (congrArg₂ (· + ·) step
      (tileOf_point E L pw b (k + 1) hk (8 * b.val + (k + 1)) rfl _ _ _ (by omega) (by omega))).trans ?_
    rfl

/-- THE BATCH: after its eighth point the running sum is the sum over all pairs of the batch's rows. -/
theorem batch_value (c : Dev nD) (E : Fin 4 → Fin 4096 → Fin 64 → EReal) (L : Fin 4 → Fin 4096 → BitVec 32)
    (pw : Fin 4 → Fin 4096 → EReal)
    (hfirst : ∀ t : Fin cfg0.N, t.val % 8 = 0 → accAt m c t.val t.isLt = tileAt m c t (k0_pay2 (F := Ideal)))
    (hnext : ∀ t : Fin cfg0.N, ¬t.val % 8 = 0 → accAt m c t.val t.isLt = tileAt m c t (accAt m c (t.val - 1) (Nat.lt_of_le_of_lt (Nat.sub_le _ _) t.isLt)))
    (h0 : ∀ (t : Fin cfg0.N) (h : t.val < 32) n k, iblk m c 0 t (ix3 0 n k) = E ⟨t.val / 8, by omega⟩ (Cert.Spec.rowN ⟨t.val / 4 % 2, by omega⟩ n) k)
    (h1 : ∀ (t : Fin cfg0.N) (h : t.val < 32) j k, iblk m c 1 t (ix3 0 j k) = E ⟨t.val / 8, by omega⟩ (Cert.Spec.rowM ⟨t.val % 4, by omega⟩ j) k)
    (h2 : ∀ (t : Fin cfg0.N) (h : t.val < 32) n, iblk m c 2 t (ix3 0 0 n) = L ⟨t.val / 8, by omega⟩ (Cert.Spec.rowN ⟨t.val / 4 % 2, by omega⟩ n))
    (h3 : ∀ (t : Fin cfg0.N) (h : t.val < 32) j, iblk m c 3 t (ix3 0 0 j) = L ⟨t.val / 8, by omega⟩ (Cert.Spec.rowM ⟨t.val % 4, by omega⟩ j))
    (h4 : ∀ (t : Fin cfg0.N) (h : t.val < 32) n, iblk m c 4 t (ix3 0 0 n) = pw ⟨t.val / 8, by omega⟩ (Cert.Spec.rowN ⟨t.val / 4 % 2, by omega⟩ n))
    (h5 : ∀ (t : Fin cfg0.N) (h : t.val < 32) j, iblk m c 5 t (ix3 0 0 j) = pw ⟨t.val / 8, by omega⟩ (Cert.Spec.rowM ⟨t.val % 4, by omega⟩ j))
    (b : Fin 4) :
    accAt m c (8 * b.val + 7) (by have := N32; have := b.isLt; omega) (ix3 0 0 0) = Cert.Spec.batchSum E L pw b :=
  (acc_prefix m c E L pw hfirst hnext h0 h1 h2 h3 h4 h5 b 7 (by omega)).trans
    ((Cert.Spec.accUpTo_eight _).trans (Cert.Spec.batchSum_eq_tiles E L pw b).symm)

end Cert.KernelIdeal.Fr

end
-- ==== Proof.KiPieces.lean ====
/-
  What the kernel body leaves in the scratch and in the output block's buffer, as terms of the body's arithmetic.

  At every point the body's last store to the scratch writes the whole one-element accumulator: the tile's sum of
  weighted pair contributions, computed from the point's six blocks, added to what the scratch held before that store.
  At the first point of a batch the scratch was just reset to the zero word, so the store adds to that; elsewhere it
  adds to what the point before left. At the last point of a batch the body then copies the scratch to the output
  block's buffer. So the running sum obeys a one-step recursion within each batch, and the output block receives it.
-/
import proofs.«175888_j22187801051866_2_alg».proof.Proof.KiData
import Idealize.ShloMosaic.Lib.Pipeline.Value
import Idealize.ShloMosaic.Lib.Tactic
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The origin of a rank-three array. -/
theorem hz3 : (![0, 0, 0] : Fin 3 → Nat) = fun _ => 0 := funext fun a => by fin_cases a <;> rfl

/-- What the scratch holds after the body's last store at point `t`, when it held `xs` before it: the sum over the
    tile of the weighted pair contributions (mask from the two label blocks, weights from the two weight blocks, the
    two branches from the two embedding blocks), added to `xs`. -/
def tile (c : Dev nD) (t : Fin cfg0.N) (xs : Vec F S1x1x1 .f32) : Vec F S1x1x1 .f32 :=
  k0_pay1 (k0_pay4 (iblk m c 2 t) (iblk m c 3 t)) (k0_pay5 (iblk m c 4 t) (iblk m c 5 t))
    (k0_pay6 (iblk m c 0 t) (iblk m c 1 t)) (k0_pay7 (iblk m c 0 t) (iblk m c 1 t)) xs

/-! ## The pieces the stores leave -/

/-- First point of a batch: the reset stores the zero word, the accumulating store reads it back and adds the tile. -/
theorem soutA_eq (c : Dev nD) (t : Fin cfg0.N) (hc0 : condReset (grid0.coords t)) (hc1 : ¬condFlush (grid0.coords t)) :
    soutA m c t hc0 hc1 = tile m c t (k0_pay2 (F := F)) := by
  unfold soutA
  rw [View.read_writes_eq_canon _ _ _ (scoverA m c t hc0 hc1)]
  unfold kernelRunA
  dsimp only
  sl_unfold_words
  dsimp only
  rw [View.canon_cons_unit_zero (S := S1x1x1) hz3, View.readCov_unit_zero (S := S1x1x1) _ hz3]
  simp only [View.readAt_eq_ld, (hs0 t).read_unread, (hs1 t).read_unread, (hs2 t).read_unread, (hs3 t).read_unread,
    (hs4 t).read_unread, (hs5 t).read_unread,
    View.ld_unit_zero (S := S1x1x2048) hz3, View.ld_unit_zero (S := S1x1x1024) hz3,
    View.ld_unit_zero (S := S1x2048x64) hz3, View.ld_unit_zero (S := S1x1024x64) hz3]
  rfl

/-- A middle point of a batch: the one store adds the tile to what the scratch held. -/
theorem soutB_eq (c : Dev nD) (t : Fin cfg0.N) (hc0 : ¬condReset (grid0.coords t)) (hc1 : ¬condFlush (grid0.coords t))
    (xs : Vec F S1x1x1 .f32) : soutB m c t hc0 hc1 xs = tile m c t xs := by
  unfold soutB
  rw [View.read_writes_eq_canon _ _ _ (scoverB m c t hc0 hc1 xs)]
  unfold kernelRunB
  dsimp only
  rw [View.canon_unit_zero hz3]
  simp only [View.readAt_eq_ld, (hs0 t).read_unread, (hs1 t).read_unread, (hs2 t).read_unread, (hs3 t).read_unread,
    (hs4 t).read_unread, (hs5 t).read_unread, (Memref.isWhole_whole (cc0_scratch0 : Ref sig .tc)).read_unread,
    View.ld_unit_zero (S := S1x1x1) hz3, View.ld_unit_zero (S := S1x1x2048) hz3, View.ld_unit_zero (S := S1x1x1024) hz3,
    View.ld_unit_zero (S := S1x2048x64) hz3, View.ld_unit_zero (S := S1x1024x64) hz3]
  rfl

/-- The last point of a batch, the scratch: the same one store. -/
theorem soutC_eq (c : Dev nD) (t : Fin cfg0.N) (hc0 : ¬condReset (grid0.coords t)) (hc1 : condFlush (grid0.coords t))
    (xs : Vec F S1x1x1 .f32) : soutC m c t hc0 hc1 xs = tile m c t xs := by
  unfold soutC
  rw [View.read_writes_eq_canon _ _ _ (scoverC m c t hc0 hc1 xs)]
  unfold kernelRunC
  dsimp only
  sl_unfold_words
  dsimp only
  rw [View.canon_unit_zero hz3]
  simp only [View.readAt_eq_ld, (hs0 t).read_unread, (hs1 t).read_unread, (hs2 t).read_unread, (hs3 t).read_unread,
    (hs4 t).read_unread, (hs5 t).read_unread, (Memref.isWhole_whole (cc0_scratch0 : Ref sig .tc)).read_unread,
    View.ld_unit_zero (S := S1x1x1) hz3, View.ld_unit_zero (S := S1x1x2048) hz3, View.ld_unit_zero (S := S1x1x1024) hz3,
    View.ld_unit_zero (S := S1x2048x64) hz3, View.ld_unit_zero (S := S1x1024x64) hz3]
  rfl

/-- The last point of a batch, the output block's buffer: it receives the scratch as just stored. -/
theorem outC_eq (c : Dev nD) (t : Fin cfg0.N) (hc0 : ¬condReset (grid0.coords t)) (hc1 : condFlush (grid0.coords t))
    (xs : Vec F S1x1x1 .f32) : outC m c t hc0 hc1 xs = tile m c t xs := by
  unfold outC
  rw [View.read_writes_eq_canon _ _ _ (coverC m c t hc0 hc1 xs)]
  unfold kernelRunC
  dsimp only
  sl_unfold_words
  dsimp only
  rw [View.canon_unit_zero hz3, View.readCov_unit_zero (S := S1x1x1) _ hz3]
  simp only [View.readAt_eq_ld, (hs0 t).read_unread, (hs1 t).read_unread, (hs2 t).read_unread, (hs3 t).read_unread,
    (hs4 t).read_unread, (hs5 t).read_unread, (Memref.isWhole_whole (cc0_scratch0 : Ref sig .tc)).read_unread,
    View.ld_unit_zero (S := S1x1x1) hz3, View.ld_unit_zero (S := S1x1x2048) hz3, View.ld_unit_zero (S := S1x1x1024) hz3,
    View.ld_unit_zero (S := S1x2048x64) hz3, View.ld_unit_zero (S := S1x1024x64) hz3]
  rfl

/-! ## The running sum's recursion -/

/-- At the first point of a batch the running sum is the tile added to the zero word. -/
theorem accAt_first (c : Dev nD) (t : Fin cfg0.N) (h0 : t.val % 8 = 0) :
    accAt m c t.val t.isLt = tile m c t (k0_pay2 (F := F)) :=
  (accAt_A m c t h0 ((condReset_iff t).mpr h0) (fun h => by have h' := (condFlush_iff t).mp h; omega)).trans
    (soutA_eq m c t _ _)

/-- At any other point it is the tile added to the running sum the point before left. -/
theorem accAt_next (c : Dev nD) (t : Fin cfg0.N) (h0 : ¬t.val % 8 = 0) :
    accAt m c t.val t.isLt = tile m c t (accAt m c (t.val - 1) (Nat.lt_of_le_of_lt (Nat.sub_le _ _) t.isLt)) := by
  have hc0 : ¬condReset (grid0.coords t) := fun h => h0 ((condReset_iff t).mp h)
  by_cases h1 : t.val % 8 = 7
  · exact (accAt_C m c t h0 h1 hc0 ((condFlush_iff t).mpr h1)).trans (soutC_eq m c t _ _ _)
  · exact (accAt_B m c t h0 h1 hc0 (fun h => h1 ((condFlush_iff t).mp h))).trans (soutB_eq m c t _ _ _)

/-- At the last point of a batch the output block's buffer holds the running sum. -/
theorem outAt_last (c : Dev nD) (t : Fin cfg0.N) (h1 : t.val % 8 = 7) : outAt m c t = accAt m c t.val t.isLt := by
  have h0 : ¬t.val % 8 = 0 := by omega
  have hc0 : ¬condReset (grid0.coords t) := fun h => h0 ((condReset_iff t).mp h)
  have hc1 : condFlush (grid0.coords t) := (condFlush_iff t).mpr h1
  exact (outAt_C m c t h1 hc0 hc1).trans ((outC_eq m c t hc0 hc1 _).trans
    ((accAt_C m c t h0 h1 hc0 hc1).trans (soutC_eq m c t hc0 hc1 _)).symm)

end Cert.KernelIdeal.Fr

end
-- ==== Proof.KiOut.lean ====
/-
  The output array after the run.

  The output window's block is one number per batch. It is written back exactly at the last point of a batch, point
  `8 b + 7` for batch `b`, where its buffer holds the running sum; and that point's block is entry `b` of the
  `[4, 1, 1]` array. The four write-backs cover the array, so it ends holding, at entry `b`, the running sum after
  the last point of batch `b`.
-/
import proofs.«175888_j22187801051866_2_alg».proof.Proof.KiData
import Idealize.ShloMosaic.Lib.Pipeline.Value
import Idealize.ShloMosaic.Lib.ValueIdx
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ)

/-- The running sum at equal positions. -/
theorem accAt_congr_pos (c : Dev nD) {n n' : ℕ} (h : n = n') (hn : n < cfg0.N) (hn' : n' < cfg0.N) :
    accAt m c n hn = accAt m c n' hn' := by
  subst h; rfl

/-- The `[1, 1, 1]` block has one index. -/
theorem idx111_eq (y : S1x1x1.Idx) : y = ix3 (0 : Fin 1) (0 : Fin 1) (0 : Fin 1) := by
  funext a
  apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-- The output window's block index at point `t` is `(t / 8, 0, 0)`: decided over the grid. -/
theorem idx_out : ∀ t : Fin cfg0.N, win0_6.index t (0 : Fin 3) = t.val / 8 ∧ win0_6.index t (1 : Fin 3) = 0
    ∧ win0_6.index t (2 : Fin 3) = 0 :=
  (by decide +kernel : ∀ t : Fin grid0.N, _)

/-- What the output array ends holding: at entry `b` the running sum after the last point of batch `b`. -/
def Gout (c : Dev nD) : Buf (Elt F) ((cfg0.win 6).arr.view.loc (c : Thread nD τ)) :=
  fun (i : S4x1x1.Idx) => accAt m c (8 * (i 0).val + 7) (by have h : (i 0).val < 4 := (i 0).isLt; have := N32; omega)
    (ix3 (0 : Fin 1) (0 : Fin 1) (0 : Fin 1))

/-- WHAT A FLUSHING POINT WRITES BACK is its block of `Gout`. -/
theorem flushed6_eq (c : Dev nD) (hlast : ∀ t : Fin cfg0.N, t.val % 8 = 7 → outAt m c t = accAt m c t.val t.isLt)
    (t : Fin cfg0.N) (hf : (cfg0.win 6).flush t = true) :
    (dats m 0 c).flushed 6 t = ((cfg0.win 6).blk t).view.read (Elt F) (Gout m c) := by
  have h7 : t.val % 8 = 7 := (flush0_6 t).mp hf
  have hN : cfg0.N = 32 := N32
  have htl := t.isLt
  show (cfg0.win 6).cut (grid0.coords t) ((dats m 0 c).after 6 t) = _
  rw [after6, hlast t h7]
  funext j
  obtain ⟨e0, e1, e2⟩ := idx_out t
  have hpt : (((cfg0.win 6).blk t).view.emb j : S4x1x1.Idx)
      = ix3 (⟨t.val / 8, by omega⟩ : Fin 4) (0 : Fin 1) (0 : Fin 1) := by
    funext a
    apply Fin.ext
    match a with
    | ⟨0, _⟩ =>
      show win0_6.index t (0 : Fin 3) * 1 + 1 * (j 0).val = t.val / 8
      have hj : (j 0).val < 1 := (j 0).isLt
      omega
    | ⟨1, _⟩ =>
      show win0_6.index t (1 : Fin 3) * 1 + 1 * (j 1).val = 0
      have hj : (j 1).val < 1 := (j 1).isLt
      omega
    | ⟨2, _⟩ =>
      show win0_6.index t (2 : Fin 3) * 1 + 1 * (j 2).val = 0
      have hj : (j 2).val < 1 := (j 2).isLt
      omega
  show accAt m c t.val t.isLt ((cfg0.win 6).xinj (grid0.coords t) j) = Gout m c (((cfg0.win 6).blk t).view.emb j)
  rw [hpt, idx111_eq ((cfg0.win 6).xinj (grid0.coords t) j)]
  show _ = accAt m c (8 * (t.val / 8) + 7) _ (ix3 (0 : Fin 1) (0 : Fin 1) (0 : Fin 1))
  exact congrFun (accAt_congr_pos m c (by omega) _ _) _

/-- An entry of the array is in point `t`'s block iff each coordinate is in the block's range on its axis. -/
theorem mem_blk6 (t : Fin cfg0.N) (i : S4x1x1.Idx) :
    i ∈ ((cfg0.win 6).blk t).view.set ↔ ∀ a : Fin 3, win0_6.index t a * S1x1x1.size a ≤ (i a).val
      ∧ (i a).val < win0_6.index t a * S1x1x1.size a + S1x1x1.size a := by
  show i ∈ ((View.whole main_v15).slice (win0_6.rect t)).set ↔ _
  rw [View.set_slice_whole, Rect.mem_set_unit]
  exact Iff.rfl

/-- Entry `b` of the array is in the block of point `8 b + 7`, which is written back. -/
theorem cover6 (i : S4x1x1.Idx) :
    ∃ t : Fin cfg0.N, (cfg0.win 6).flush t = true ∧ i ∈ ((cfg0.win 6).blk t).view.set := by
  have hi0 : (i 0).val < 4 := (i 0).isLt
  have hi1 : (i 1).val < 1 := (i 1).isLt
  have hi2 : (i 2).val < 1 := (i 2).isLt
  have hN : cfg0.N = 32 := N32
  have ht : 8 * (i 0).val + 7 < cfg0.N := by omega
  refine ⟨⟨8 * (i 0).val + 7, ht⟩, (flush0_6 _).mpr (by show (8 * (i 0).val + 7) % 8 = 7; omega), ?_⟩
  rw [mem_blk6]
  obtain ⟨e0, e1, e2⟩ := idx_out ⟨8 * (i 0).val + 7, ht⟩
  have e0' : win0_6.index ⟨8 * (i 0).val + 7, ht⟩ (0 : Fin 3) = (8 * (i 0).val + 7) / 8 := e0
  intro a
  match a with
  | ⟨0, _⟩ =>
    show win0_6.index ⟨8 * (i 0).val + 7, ht⟩ (0 : Fin 3) * 1 ≤ (i 0).val
      ∧ (i 0).val < win0_6.index ⟨8 * (i 0).val + 7, ht⟩ (0 : Fin 3) * 1 + 1
    omega
  | ⟨1, _⟩ =>
    show win0_6.index ⟨8 * (i 0).val + 7, ht⟩ (1 : Fin 3) * 1 ≤ (i 1).val
      ∧ (i 1).val < win0_6.index ⟨8 * (i 0).val + 7, ht⟩ (1 : Fin 3) * 1 + 1
    omega
  | ⟨2, _⟩ =>
    show win0_6.index ⟨8 * (i 0).val + 7, ht⟩ (2 : Fin 3) * 1 ≤ (i 2).val
      ∧ (i 2).val < win0_6.index ⟨8 * (i 0).val + 7, ht⟩ (2 : Fin 3) * 1 + 1
    omega

/-- THE OUTPUT ARRAY after the run. -/
theorem final6 (c : Dev nD) (hlast : ∀ t : Fin cfg0.N, t.val % 8 = 7 → outAt m c t = accAt m c t.val t.isLt) :
    (dats m 0 c).arrAt 6 cfg0.N = Gout m c :=
  (dats m 0 c).arrAt_eq_of_cover 6 (Gout m c) (flushed6_eq m c hlast) cover6

end Cert.KernelIdeal.Fr

end
-- ==== Proof.KiHost.lean ====
/-
  The arrays the kernel's region finds, as functions of the program's two arguments, at the ideal values.

  Before the region the host reshapes the embedding to `[4, 4096, 64]` and narrows it to the sixteen-bit format (the
  identity at the ideal values), reshapes the labels to `[4, 4096]`, computes from the labels the row weights (one
  over the number of rows of the batch with the same label) and lays labels and weights out as `[4, 1, 4096]`. These
  are the same operations, on the same arguments, as the reference program's first lines: the three arrays are the
  reference's reshaped embedding, reshaped labels and weights, read at the matching coordinates.
-/
import proofs.«175888_j22187801051866_2_alg».proof.Proof.KiData
import proofs.«175888_j22187801051866_2_alg».proof.Proof.Gen.ReferenceIdeal.Read
import Idealize.ShloMosaic.Lib.StableHlo.Run
import Idealize.ShloMosaic.Lib.Pipeline.Value
import Idealize.ShloMosaic.Lib.ValueIdx
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The three arrays, whole -/

/-- The embedding the region reads: the reference's reshaped embedding (the narrowing is the identity here). -/
theorem V_v1_eq (c : Dev nD) :
    (V m c main_v1 : S4x4096x64.Idx → EReal)
      = Cert.ReferenceIdeal.Read.val_main_v0 (F := Ideal) (m ((c : Thread nD τ).loc main_arg0)) := by
  dsimp only [V, Vv, hostOps0]
  after_results
  rfl

/-- The labels the region reads: the reference's reshaped labels, laid out as `[4, 1, 4096]`. -/
theorem V_v13_eq (c : Dev nD) :
    (V m c main_v13 : S4x1x4096.Idx → BitVec 32)
      = shapeCast S4x1x4096 (Cert.ReferenceIdeal.Read.val_main_v2 (F := Ideal) (m ((c : Thread nD τ).loc main_arg1)))
          shapeCasts_S4x4096_S4x1x4096 := by
  dsimp only [V, Vv, hostOps0]
  after_results
  rfl

/-- The weights the region reads: the reference's row weights, laid out as `[4, 1, 4096]`. The count of equal labels
    inside them is the same on both sides. -/
theorem V_v14_eq (c : Dev nD) :
    (V m c main_v14 : S4x1x4096.Idx → EReal)
      = shapeCast S4x1x4096 (Cert.ReferenceIdeal.Read.val_main_v12 (F := Ideal) (m ((c : Thread nD τ).loc main_arg1)))
          shapeCasts_S4x4096_S4x1x4096 := by
  dsimp only [V, Vv, hostOps0]
  after_results
  rfl

/-! ## Read at coordinates -/

/-- The layout `[4, 4096] → [4, 1, 4096]` read at `(b, 0, n)` is the operand at `(b, n)`: the same row-major position. -/
theorem reshape_row_apply {α : Type} (x : S4x4096.Idx → α) (b : Fin 4) (n : Fin 4096) :
    shapeCast S4x1x4096 x shapeCasts_S4x4096_S4x1x4096 (ix3 b 0 n) = x (ix2 b n) :=
  shapeCast_apply x shapeCasts_S4x4096_S4x1x4096 (ix3 b 0 n) (ix2 b n) (by
    rewrite [Shape.rowMajor_val_two, Shape.rowMajor_val_three]
    show b.val * 4096 + n.val = (b.val * 1 + 0) * 4096 + n.val
    omega)

theorem V_v1 (c : Dev nD) (b : Fin 4) (n : Fin 4096) (k : Fin 64) :
    V m c main_v1 (ix3 b n k)
      = Cert.ReferenceIdeal.Read.val_main_v0 (F := Ideal) (m ((c : Thread nD τ).loc main_arg0)) (ix3 b n k) :=
  congrFun (V_v1_eq m c) (ix3 b n k)

theorem V_v13 (c : Dev nD) (b : Fin 4) (n : Fin 4096) :
    V m c main_v13 (ix3 b 0 n)
      = Cert.ReferenceIdeal.Read.val_main_v2 (F := Ideal) (m ((c : Thread nD τ).loc main_arg1)) (ix2 b n) :=
  (congrFun (V_v13_eq m c) (ix3 b 0 n)).trans (reshape_row_apply _ b n)

theorem V_v14 (c : Dev nD) (b : Fin 4) (n : Fin 4096) :
    V m c main_v14 (ix3 b 0 n)
      = Cert.ReferenceIdeal.Read.val_main_v12 (F := Ideal) (m ((c : Thread nD τ).loc main_arg1)) (ix2 b n) :=
  (congrFun (V_v14_eq m c) (ix3 b 0 n)).trans (reshape_row_apply _ b n)

end Cert.KernelIdeal.Fr

end
-- ==== Proof.KiFinal.lean ====
/-
  The kernel program's result, at the ideal values, as the specification's total.

  The region leaves in the output array, at entry `b`, the running sum after the last point of batch `b`: the sum
  over all pairs of rows of batch `b` of the weighted pair contributions, because each of the batch's eight points
  adds its tile, and the tiles' blocks are the corresponding rows of the embedding, the labels and the row weights the
  host lines before the region compute. The host lines after the region add the four entries from zero and multiply by
  `4096`. So the result is `4096` times the sum over the four batches of the batch sums: the specification's total,
  at the reshaped embedding, the reshaped labels and the row weights.
-/
import proofs.«175888_j22187801051866_2_alg».proof.Proof.KiBlocks
import proofs.«175888_j22187801051866_2_alg».proof.Proof.KiBatch
import proofs.«175888_j22187801051866_2_alg».proof.Proof.KiPieces
import proofs.«175888_j22187801051866_2_alg».proof.Proof.KiOut
import proofs.«175888_j22187801051866_2_alg».proof.Proof.KiHost
import proofs.«175888_j22187801051866_2_alg».proof.Proof.KiLaunch
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The embedding, the labels and the row weights the region reads, by batch, row and column. -/
abbrev rowsE (c : Dev nD) : Fin 4 → Fin 4096 → Fin 64 → EReal :=
  fun b n k => Cert.ReferenceIdeal.Read.val_main_v0 (F := Ideal) (m ((c : Thread nD τ).loc main_arg0)) (ix3 b n k)
abbrev rowsL (c : Dev nD) : Fin 4 → Fin 4096 → BitVec 32 :=
  fun b n => Cert.ReferenceIdeal.Read.val_main_v2 (F := Ideal) (m ((c : Thread nD τ).loc main_arg1)) (ix2 b n)
abbrev rowsPW (c : Dev nD) : Fin 4 → Fin 4096 → EReal :=
  fun b n => Cert.ReferenceIdeal.Read.val_main_v12 (F := Ideal) (m ((c : Thread nD τ).loc main_arg1)) (ix2 b n)

/-- Entry `b` of the output array after the region is the sum over all pairs of rows of batch `b`. -/
theorem out_entry (c : Dev nD) (b : Fin 4) :
    ((dats m 0 c).arrAt 6 cfg0.N : S4x1x1.Idx → EReal) (ix3 b 0 0)
      = Cert.Spec.batchSum (rowsE m c) (rowsL m c) (rowsPW m c) b := by
  refine (congrFun (final6 m c (outAt_last m c)) (ix3 b 0 0)).trans ?_
  show accAt m c (8 * b.val + 7) _ (ix3 0 0 0) = _
  exact batch_value m c (rowsE m c) (rowsL m c) (rowsPW m c)
    (fun t h => accAt_first m c t h) (fun t h => accAt_next m c t h)
    (fun t h n k => (blk0 m c t n k).trans (V_v1 m c _ _ k))
    (fun t h j k => (blk1 m c t j k).trans (V_v1 m c _ _ k))
    (fun t h n => (blk2 m c t n).trans (V_v13 m c _ _))
    (fun t h j => (blk3 m c t j).trans (V_v13 m c _ _))
    (fun t h n => (blk4 m c t n).trans (V_v14 m c _ _))
    (fun t h j => (blk5 m c t j).trans (V_v14 m c _ _)) b

/-- THE RESULT: `4096` times the sum of the four batch sums. -/
theorem value (c : Dev nD) (i : S_.Idx) :
    Wfin m c (Proc.devRef .tc main_v18) i
      = Cert.Spec.total
          (fun b n k => Cert.ReferenceIdeal.Read.val_main_v0 (F := Ideal) (m ((c : Thread nD τ).loc main_arg0)) (ix3 b n k))
          (fun b n => Cert.ReferenceIdeal.Read.val_main_v2 (F := Ideal) (m ((c : Thread nD τ).loc main_arg1)) (ix2 b n))
          (fun b n => Cert.ReferenceIdeal.Read.val_main_v12 (F := Ideal) (m ((c : Thread nD τ).loc main_arg1)) (ix2 b n)) := by
  refine (tail_v18 (W1 m c) i).trans ?_
  unfold Cert.Spec.total
  refine congrArg (Cert.Spec.n4096 * ·) (Finset.sum_congr rfl fun b _ => ?_)
  refine (congrFun (W1_v15 m c) (ix3 b 0 0)).trans ?_
  exact out_entry m c b

end Cert.KernelIdeal.Fr

end
-- ==== Proof.RefSum.lean ====
/-
  A float sum over the two trailing axes of a rank-three array, read at the ideal values.

  The host's sum of an array `x` of shape `[a, b, c]` over its axes 1 and 2 is, at the result index `j`, the initial
  value plus the sum of `x` over the source indices whose first coordinate is `j`'s. Those indices are exactly
  `(j, n, m)` for `n < b`, `m < c`, so the sum is the double sum `∑ n, ∑ m, x (j, n, m)`.
-/
import Idealize.ShloMosaic.Lib.ValueIdx
import Idealize.ShloMosaic.Lib.IdealHost
import Idealize.ShloMosaic.PureOps.Ideal.Laws

namespace Cert.RefSum

open Idealize.ShloMosaic Idealize.ShloMosaic.ValueIdx
open scoped BigOperators

variable {a b c : ℕ}

/-- Dropping the two trailing coordinates keeps the first one. -/
theorem drop_trailing2_val (h : (⟨3, ![a, b, c]⟩ : Shape).ReducesTo [(1 : Fin 3), (2 : Fin 3)] ⟨1, ![a]⟩)
    (i : (⟨3, ![a, b, c]⟩ : Shape).Idx) : (h.drop i 0 : ℕ) = (i 0 : ℕ) :=
  rfl

/-- An index whose first coordinate is `j`'s is `(j, n, m)` for its own two trailing coordinates. -/
theorem ix3_of_drop_trailing2 (h : (⟨3, ![a, b, c]⟩ : Shape).ReducesTo [(1 : Fin 3), (2 : Fin 3)] ⟨1, ![a]⟩)
    (i : (⟨3, ![a, b, c]⟩ : Shape).Idx) (j : (⟨1, ![a]⟩ : Shape).Idx) (hj : h.drop i = j) :
    (ix3 (j 0) (i 1) (i 2) : (⟨3, ![a, b, c]⟩ : Shape).Idx) = i := by
  funext d
  match d with
  | ⟨0, _⟩ => exact Fin.ext (by rw [← hj]; exact drop_trailing2_val h i)
  | ⟨1, _⟩ => rfl
  | ⟨2, _⟩ => rfl

/-- The indices that drop to `j`, summed, are the two trailing coordinates, summed. -/
theorem sum_filter_drop_trailing2 {α : Type} [AddCommMonoid α]
    (h : (⟨3, ![a, b, c]⟩ : Shape).ReducesTo [(1 : Fin 3), (2 : Fin 3)] ⟨1, ![a]⟩)
    (x : (⟨3, ![a, b, c]⟩ : Shape).Idx → α) (j : (⟨1, ![a]⟩ : Shape).Idx) :
    ∑ i ∈ Finset.univ.filter (fun i => h.drop i = j), x i = ∑ n : Fin b, ∑ m : Fin c, x (ix3 (j 0) n m) := by
  refine Eq.trans ?_ (Fintype.sum_prod_type' (fun (n : Fin b) (m : Fin c) => x (ix3 (j 0) n m)))
  refine Finset.sum_nbij' (fun i => ((i 1, i 2) : Fin b × Fin c)) (fun p => ix3 (j 0) p.1 p.2) ?_ ?_ ?_ ?_ ?_
  · intro i _; exact Finset.mem_univ _
  · intro p _
    refine Finset.mem_filter.2 ⟨Finset.mem_univ _, ?_⟩
    funext d
    match d with
    | ⟨0, _⟩ => exact Fin.ext (drop_trailing2_val h _)
  · intro i hi; exact ix3_of_drop_trailing2 h i j (Finset.mem_filter.1 hi).2
  · intro p _; rfl
  · intro i hi; exact congrArg x (ix3_of_drop_trailing2 h i j (Finset.mem_filter.1 hi).2).symm

/-- The host's float sum over the two trailing axes, at the ideal values: the initial value plus the double sum. -/
theorem hostReduceAdd_trailing2 (h : (⟨3, ![a, b, c]⟩ : Shape).ReducesTo [(1 : Fin 3), (2 : Fin 3)] ⟨1, ![a]⟩)
    (x : (⟨3, ![a, b, c]⟩ : Shape).Idx → EReal) (init : EReal) (j : (⟨1, ![a]⟩ : Shape).Idx) :
    Ideal.hostReduceAdd h x init j = init + ∑ n : Fin b, ∑ m : Fin c, x (ix3 (j 0) n m) := by
  unfold Ideal.hostReduceAdd
  rw [sum_filter_drop_trailing2]

/-- The same for the operation as a reference program prints it, from the initial array's first element. -/
theorem reduceAdd_trailing2 {φ : FTy} {u : Shape} (x : FVec Ideal ⟨3, ![a, b, c]⟩ φ) (init : u.Idx → Ideal φ)
    (h : (⟨3, ![a, b, c]⟩ : Shape).ReducesTo [(1 : Fin 3), (2 : Fin 3)] ⟨1, ![a]⟩) (hu : 0 < u.numel)
    (j : (⟨1, ![a]⟩ : Shape).Idx) :
    Host.reduceAdd x init h hu j = init (Shape.Idx.first hu) + ∑ n : Fin b, ∑ m : Fin c, x (ix3 (j 0) n m) := by
  rw [hostReduceAdd_apply]
  exact hostReduceAdd_trailing2 h x _ j

end Cert.RefSum
-- ==== Proof.RefPairs.lean ====
/-
  One pair of rows in the reference program, at the ideal values.

  The reference's last elementwise array, of shape `[4, 4096, 4096]`, holds at `(b, n, m)` the weighted contribution of
  the pair of rows `n, m` of batch `b`: the product of the two rows' weights, times `1 - sim` where the labels agree
  and `max (sim - 1/2) 0` where they differ, `sim` being the Gram entry `∑ c, E b n c * E b m c`. Every operation
  before it reads one element of each operand, so the value at `(b, n, m)` unfolds operation by operation; the
  broadcasts read row `n` (the `[4, 4096, 1]` arrays) or row `m` (the `[4, 1, 4096]` arrays).
-/
import proofs.«175888_j22187801051866_2_alg».proof.Proof.Gen.ReferenceIdeal.Read
import proofs.«175888_j22187801051866_2_alg».proof.Proof.Spec
import Idealize.ShloMosaic.Lib.ValueIdx
import Idealize.ShloMosaic.PureOps.Ideal.Laws

noncomputable section

namespace Cert.ReferenceIdeal.RefPairs

open Cert.ReferenceIdeal Cert.ReferenceIdeal.Read Idealize.ShloMosaic Idealize.ShloMosaic.ValueIdx

variable (b : Fin 4) (n m : Fin 4096)

/-! ## Where each broadcast reads -/

/-- The row weights, broadcast along the last axis, read row `n`. -/
theorem idx_weight_row : idx_main_v13 (idx_main_v15 (ix3 b n m)) = ix2 b n := by
  funext a; match a with | ⟨0, _⟩ => rfl | ⟨1, _⟩ => rfl
/-- The row weights, broadcast along the middle axis, read row `m`. -/
theorem idx_weight_col : idx_main_v14 (idx_main_v16 (ix3 b n m)) = ix2 b m := by
  funext a; match a with | ⟨0, _⟩ => rfl | ⟨1, _⟩ => rfl
/-- The labels, broadcast along the last axis, read row `n`. -/
theorem idx_label_row : idx_main_v3 (idx_main_v5 (ix3 b n m)) = ix2 b n := by
  funext a; match a with | ⟨0, _⟩ => rfl | ⟨1, _⟩ => rfl
/-- The labels, broadcast along the middle axis, read row `m`. -/
theorem idx_label_col : idx_main_v4 (idx_main_v6 (ix3 b n m)) = ix2 b m := by
  funext a; match a with | ⟨0, _⟩ => rfl | ⟨1, _⟩ => rfl
/-- The Gram product's left factor at `(b, n, m)`, `k`: row `n`, column `k`. -/
theorem idx_gram_lhs (k : Fin 64) : lidx_main_v1 (ix3 b n m) k = ix3 b n k := by
  funext a; match a with | ⟨0, _⟩ => rfl | ⟨1, _⟩ => rfl | ⟨2, _⟩ => rfl
/-- The Gram product's right factor at `(b, n, m)`, `k`: row `m`, column `k`. -/
theorem idx_gram_rhs (k : Fin 64) : ridx_main_v1 (ix3 b n m) k = ix3 b m k := by
  funext a; match a with | ⟨0, _⟩ => rfl | ⟨1, _⟩ => rfl | ⟨2, _⟩ => rfl

/-! ## The factors at a pair -/

/-- The pair's weight is the product of the two rows' weights. -/
theorem weight_apply (lab : (⟨S4x64x64, .i32⟩ : BufTy).Contents (Elt Ideal)) :
    val_main_v17 (F := Ideal) lab (ix3 b n m)
      = val_main_v12 (F := Ideal) lab (ix2 b n) * val_main_v12 (F := Ideal) lab (ix2 b m) := by
  rw [val_main_v17_apply, val_main_v15_apply, val_main_v13_apply, val_main_v16_apply, val_main_v14_apply,
    idx_weight_row, idx_weight_col]
  rfl

/-- The Gram entry of rows `n` and `m`. -/
theorem gram_apply (emb : (⟨S4x64x64x64, .f32⟩ : BufTy).Contents (Elt Ideal)) :
    val_main_v1 (F := Ideal) emb (ix3 b n m)
      = ∑ c : Fin 64, val_main_v0 (F := Ideal) emb (ix3 b n c) * val_main_v0 (F := Ideal) emb (ix3 b m c) := by
  rw [val_main_v1_apply]
  exact Finset.sum_congr rfl fun k _ => by rw [idx_gram_lhs, idx_gram_rhs]

/-- The mask is set exactly where the two rows' labels agree. -/
theorem mask_apply (lab : (⟨S4x64x64, .i32⟩ : BufTy).Contents (Elt Ideal)) :
    val_main_v7 (F := Ideal) lab (ix3 b n m)
      = if val_main_v2 (F := Ideal) lab (ix2 b n) = val_main_v2 (F := Ideal) lab (ix2 b m) then 1#1 else 0#1 := by
  rw [val_main_v7_apply, val_main_v5_apply, val_main_v3_apply, val_main_v6_apply, val_main_v4_apply,
    idx_label_row, idx_label_col]
  generalize val_main_v2 (F := Ideal) lab (ix2 b n) = x
  generalize val_main_v2 (F := Ideal) lab (ix2 b m) = y
  show BitVec.ofBool (x == y) = _
  by_cases h : x = y
  · rw [if_pos h, h, beq_self_eq_true]; rfl
  · rw [if_neg h, beq_eq_false_iff_ne.mpr h]; rfl

/-! ## The pair's contribution -/

/-- The reference's last elementwise array at `(b, n, m)` is the specification's term for that pair of rows. -/
theorem pair_apply (emb : (⟨S4x64x64x64, .f32⟩ : BufTy).Contents (Elt Ideal))
    (lab : (⟨S4x64x64, .i32⟩ : BufTy).Contents (Elt Ideal)) :
    val_main_v25 (F := Ideal) emb lab (ix3 b n m)
      = (val_main_v12 (F := Ideal) lab (ix2 b n) * val_main_v12 (F := Ideal) lab (ix2 b m))
        * Cert.Spec.perPair (∑ c : Fin 64, val_main_v0 (F := Ideal) emb (ix3 b n c) * val_main_v0 (F := Ideal) emb (ix3 b m c))
            (decide (val_main_v2 (F := Ideal) lab (ix2 b n) = val_main_v2 (F := Ideal) lab (ix2 b m))) := by
  rw [val_main_v25_apply, weight_apply, val_main_v24_apply, mask_apply, val_main_v19_apply, val_main_v23_apply,
    val_main_v21_apply, val_main_v18_apply, val_main_v20_apply, val_main_v22_apply, val_main_cst_0_apply,
    val_main_cst_1_apply, val_main_cst_2_apply, gram_apply]
  by_cases h : val_main_v2 (F := Ideal) lab (ix2 b n) = val_main_v2 (F := Ideal) lab (ix2 b m)
  · rw [if_pos h, select_one, decide_eq_true h]; rfl
  · rw [if_neg h, select_zero, decide_eq_false h]; rfl

end Cert.ReferenceIdeal.RefPairs

end
-- ==== Proof.RefValue.lean ====
/-
  The reference program's result, read at the ideal instance as one closed formula of the two argument arrays.

  The result is `4096` times the sum over the four batches of the batch's sum over all `4096 × 4096` pairs of rows of
  the pair's weighted contribution: the specification's `total`, at the reshaped embedding, the reshaped labels and the
  row weights the program computes from the labels. The two host sums start from the zero word, the additive unit,
  which drops out.
-/
import proofs.«175888_j22187801051866_2_alg».proof.Proof.Gen.ReferenceIdeal.Read
import proofs.«175888_j22187801051866_2_alg».proof.Proof.Spec
import proofs.«175888_j22187801051866_2_alg».proof.Proof.RefSum
import proofs.«175888_j22187801051866_2_alg».proof.Proof.RefPairs
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- A sum over the indices of a rank-one array is the sum over its coordinate. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

/-- One batch: the sum over the two trailing axes of the pairs' contributions is the specification's batch sum. -/
theorem batch_apply (emb : (⟨S4x64x64x64, .f32⟩ : BufTy).Contents (Elt Ideal))
    (lab : (⟨S4x64x64, .i32⟩ : BufTy).Contents (Elt Ideal)) (b : Fin 4) :
    val_main_v26 (F := Ideal) emb lab (ix1 b)
      = Cert.Spec.batchSum (fun b n c => val_main_v0 (F := Ideal) emb (ix3 b n c))
          (fun b n => val_main_v2 (F := Ideal) lab (ix2 b n))
          (fun b n => val_main_v12 (F := Ideal) lab (ix2 b n)) b := by
  unfold val_main_v26
  rw [Cert.RefSum.reduceAdd_trailing2, val_main_cst_3_apply]
  show Ideal.ofBits .f32 0x00000000#32 + _ = _
  rw [Ideal.ofBits_zero_f32, zero_add]
  unfold Cert.Spec.batchSum Cert.Spec.tileSum
  exact Finset.sum_congr rfl fun n _ => Finset.sum_congr rfl fun m _ => RefPairs.pair_apply b n m emb lab

/-- The reference's result is the specification's total. -/
theorem ref_total (emb : (⟨S4x64x64x64, .f32⟩ : BufTy).Contents (Elt Ideal))
    (lab : (⟨S4x64x64, .i32⟩ : BufTy).Contents (Elt Ideal)) (i : S_.Idx) :
    val_main_v28 (F := Ideal) emb lab i
      = Cert.Spec.total (fun b n c => val_main_v0 (F := Ideal) emb (ix3 b n c))
          (fun b n => val_main_v2 (F := Ideal) lab (ix2 b n))
          (fun b n => val_main_v12 (F := Ideal) lab (ix2 b n)) := by
  rw [val_main_v28_apply, val_main_v27_apply, val_main_cst_5_apply, val_main_cst_4_apply, sum_idx1]
  show Ideal.ofBits .f32 0x45800000#32 * (Ideal.ofBits .f32 0x00000000#32 + _) = _
  rw [Ideal.ofBits_zero_f32, zero_add]
  unfold Cert.Spec.total
  exact congrArg (Cert.Spec.n4096 * ·) (Finset.sum_congr rfl fun b _ => batch_apply emb lab b)

end Cert.ReferenceIdeal.RefValue

end
-- ==== Proof.Algebraic.lean ====
/-
  The two programs agree at the ideal values.

  From memories that agree on the two argument arrays both programs run to the end with their arguments unchanged;
  the kernel program's result is the specification's total at the reshaped embedding, the reshaped labels and the row
  weights computed from the labels, and so is the reference program's: one extended real, at the result's one index.
-/
import proofs.«175888_j22187801051866_2_alg».proof.Defs
import proofs.«175888_j22187801051866_2_alg».proof.Proof.Gen.Kernel
import proofs.«175888_j22187801051866_2_alg».proof.Proof.Gen.KernelIdeal
import proofs.«175888_j22187801051866_2_alg».proof.Proof.Gen.ReferenceIdeal
import proofs.«175888_j22187801051866_2_alg».proof.Proof.Gen.ReferenceIdeal.Run
import proofs.«175888_j22187801051866_2_alg».proof.Proof.Gen.Pre_finite_inputs
import proofs.«175888_j22187801051866_2_alg».proof.Proof.KiFinal
import proofs.«175888_j22187801051866_2_alg».proof.Proof.KiArgs
import proofs.«175888_j22187801051866_2_alg».proof.Proof.RefValue

set_option maxRecDepth 16384

noncomputable section

namespace Cert.Proof

open Idealize.ShloMosaic Idealize.ShloMosaic.TcCoe Idealize.SL.Sem

/-- Both programs end with the specification's total as their result and with their arguments unchanged. -/
theorem algebraic : Cert.algebraic_KernelIdeal_ReferenceIdeal := by
  intro m ρ m' ρ' _ hagree
  refine ⟨fun c => Cert.KernelIdeal.Fr.Wfin (F := Ideal) m c (Proc.devRef .tc Cert.KernelIdeal.main_v18), ?_, ?_⟩
  · exact (θ_run Cert.KernelIdeal.defs _ _).mono
      (fun r h c => ⟨h c Cert.KernelIdeal.main_v18 (by decide),
        (h c Cert.KernelIdeal.main_arg0 (by decide)).trans (Cert.KernelIdeal.Fr.Wfin_arg0 m c),
        (h c Cert.KernelIdeal.main_arg1 (by decide)).trans (Cert.KernelIdeal.Fr.Wfin_arg1 m c)⟩)
      (Cert.KernelIdeal.Fr.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq]
    funext i
    rw [Cert.ReferenceIdeal.RefValue.ref_total, (hagree c).1, (hagree c).2]
    exact (Cert.KernelIdeal.Fr.value m c i).symm

end Cert.Proof

end
-- ==== Proof.lean ====
/- The proof of the claim: the three programs run to the end from any memory with zero counters, nothing faulting, with
   their argument arrays unchanged; the kernel's idealization rewrote no operation, so there is nothing to preserve;
   and at the ideal values the idealized kernel and the idealized reference leave the same result: 4096 times the sum
   over the four batches of the weighted contributions of all pairs of rows (Proof/Spec.lean). The kernel adds the pairs
   tile by tile, eight tiles per batch accumulated in a scratch cell and written out at the batch's last tile; the
   reference adds them all at once. A finite sum of extended reals does not depend on its grouping or order, so the two
   agree, and no finiteness of the inputs is used. Three of the kernel's arrays are each read through two windows: in
   the kernel's run each is held by its two windows at the two halves of the full share (Proof/KiShares.lean). The
   word-level kernel's run is the idealized kernel's, read at the word-level values (Proof/Kw*.lean). -/
import proofs.«175888_j22187801051866_2_alg».proof.Defs
import proofs.«175888_j22187801051866_2_alg».proof.Proof.Gen.Kernel
import proofs.«175888_j22187801051866_2_alg».proof.Proof.Gen.KernelIdeal
import proofs.«175888_j22187801051866_2_alg».proof.Proof.Gen.ReferenceIdeal
import proofs.«175888_j22187801051866_2_alg».proof.Proof.Gen.Pre_finite_inputs
import proofs.«175888_j22187801051866_2_alg».proof.Proof.Gen.ReferenceIdeal.Run
import proofs.«175888_j22187801051866_2_alg».proof.Proof.KwArgs
import proofs.«175888_j22187801051866_2_alg».proof.Proof.KiArgs
import proofs.«175888_j22187801051866_2_alg».proof.Proof.Algebraic
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Fr.frame (F := Bits) m ρ

/-- The idealized kernel runs and keeps its arguments. -/
theorem frame_kernelIdeal : Cert.frame_KernelIdeal := fun m ρ _ => Cert.KernelIdeal.Fr.frame (F := Ideal) m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
